-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x3 : Shape := ⟨2, ![131072, 3]⟩
abbrev S131072x256 : Shape := ⟨2, ![131072, 256]⟩
abbrev S131072x3x256 : Shape := ⟨3, ![131072, 3, 256]⟩
abbrev S131072 : Shape := ⟨1, ![131072]⟩
abbrev S256x384 : Shape := ⟨2, ![256, 384]⟩
abbrev S512x512 : Shape := ⟨2, ![512, 512]⟩
abbrev S512 : Shape := ⟨1, ![512]⟩
abbrev S512x256 : Shape := ⟨2, ![512, 256]⟩
abbrev S256 : Shape := ⟨1, ![256]⟩
abbrev S128x129 : Shape := ⟨2, ![128, 129]⟩
abbrev S256x256 : Shape := ⟨2, ![256, 256]⟩
abbrev S256x2 : Shape := ⟨2, ![256, 2]⟩
abbrev S2 : Shape := ⟨1, ![2]⟩
abbrev S_ : Shape := ⟨0, ![]⟩

class Facts : Prop where
  bcast_S_S131072x3 : S_.BroadcastsInDim S131072x3 (![] : Fin 0 → Fin S131072x3.rank)
  reducesTo_S131072x3_S_d0_1 : S131072x3.ReducesTo [0, 1] S_
  h_S_ : 0 < S_.numel
  bcast_S_S131072x256 : S_.BroadcastsInDim S131072x256 (![] : Fin 0 → Fin S131072x256.rank)
  reducesTo_S131072x256_S_d0_1 : S131072x256.ReducesTo [0, 1] S_
  bcast_S_S131072x3x256 : S_.BroadcastsInDim S131072x3x256 (![] : Fin 0 → Fin S131072x3x256.rank)
  reducesTo_S131072x3x256_S_d0_1_2 : S131072x3x256.ReducesTo [0, 1, 2] S_
  bcast_S_S256x384 : S_.BroadcastsInDim S256x384 (![] : Fin 0 → Fin S256x384.rank)
  reducesTo_S256x384_S_d0_1 : S256x384.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S128x129 : S_.BroadcastsInDim S128x129 (![] : Fin 0 → Fin S128x129.rank)
  reducesTo_S128x129_S_d0_1 : S128x129.ReducesTo [0, 1] S_
  bcast_S_S256x256 : S_.BroadcastsInDim S256x256 (![] : Fin 0 → Fin S256x256.rank)
  reducesTo_S256x256_S_d0_1 : S256x256.ReducesTo [0, 1] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg12 : FVec F S256x2 .f32) (main_arg13 : FVec F S2 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x2 .f32 := Host.absf main_arg12
  let main_cst_20 : FVec F S_ .f32 := constant S_ .f32 0x7F800000#32
  let main_v55 : FVec F S256x2 .f32 := broadcastInDim S256x2 ![] bcast_S_S256x2 main_cst_20
  let main_v56 : IVec S256x2 1 := cmpf .olt main_v54 main_v55
  let main_c_21 : IVec S_ 1 := constantI S_ 1 1#1
  let main_v57 : IVec S_ 1 := (fun x v => Host.reduce IntOp.andi x v reducesTo_S256x2_S_d0_1 h_S_) main_v56 main_c_21
  let main_v58 : IVec S_ 1 := andi main_v53 main_v57
  let main_v59 : FVec F S2 .f32 := Host.absf main_arg13
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  main_v63

def fn_part2 {F : FTy → Type} [FloatOps F] (main_arg8 : FVec F S256 .f32) (main_arg9 : FVec F S128x129 .f32) (main_arg10 : FVec F S256x256 .f32) (main_arg11 : FVec F S256 .f32) (main_arg12 : FVec F S256x2 .f32) (main_arg13 : FVec F S2 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S128x129 .f32 := Host.absf main_arg9
  let main_cst_14 : FVec F S_ .f32 := constant S_ .f32 0x7F800000#32
  let main_v40 : FVec F S128x129 .f32 := broadcastInDim S128x129 ![] bcast_S_S128x129 main_cst_14
  let main_v41 : IVec S128x129 1 := cmpf .olt main_v39 main_v40
  let main_c_15 : IVec S_ 1 := constantI S_ 1 1#1
  let main_v42 : IVec S_ 1 := (fun x v => Host.reduce IntOp.andi x v reducesTo_S128x129_S_d0_1 h_S_) main_v41 main_c_15
  let main_v43 : IVec S_ 1 := andi main_v38 main_v42
  let main_v44 : FVec F S256x256 .f32 := Host.absf main_arg10
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg12 main_arg13 main_v48 main_v49 main_v50

def fn_part1 {F : FTy → Type} [FloatOps F] (main_arg5 : FVec F S512x512 .f32) (main_arg6 : FVec F S512 .f32) (main_arg7 : FVec F S512x256 .f32) (main_arg8 : FVec F S256 .f32) (main_arg9 : FVec F S128x129 .f32) (main_arg10 : FVec F S256x256 .f32) (main_arg11 : FVec F S256 .f32) (main_arg12 : FVec F S256x2 .f32) (main_arg13 : FVec F S2 .f32) (main_v13 : IVec S_ 1) (main_v16 : IVec S256x384 1) : IVec S_ 1 :=
  let main_c_5 : IVec S_ 1 := constantI S_ 1 1#1
  let main_v17 : IVec S_ 1 := (fun x v => Host.reduce IntOp.andi x v reducesTo_S256x384_S_d0_1 h_S_) main_v16 main_c_5
  let main_v18 : IVec S_ 1 := andi main_v13 main_v17
  let main_v19 : FVec F S512x512 .f32 := Host.absf main_arg5
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg6
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x256 .f32 := Host.absf main_arg7
  let main_cst_10 : FVec F S_ .f32 := constant S_ .f32 0x7F800000#32
  let main_v30 : FVec F S512x256 .f32 := broadcastInDim S512x256 ![] bcast_S_S512x256 main_cst_10
  let main_v31 : IVec S512x256 1 := cmpf .olt main_v29 main_v30
  let main_c_11 : IVec S_ 1 := constantI S_ 1 1#1
  let main_v32 : IVec S_ 1 := (fun x v => Host.reduce IntOp.andi x v reducesTo_S512x256_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S131072x3 .f32) (main_arg1 : FVec F S131072x256 .f32) (main_arg2 : FVec F S131072x3x256 .f32) (main_arg3 : IVec S131072 32) (main_arg4 : FVec F S256x384 .f32) (main_arg5 : FVec F S512x512 .f32) (main_arg6 : FVec F S512 .f32) (main_arg7 : FVec F S512x256 .f32) (main_arg8 : FVec F S256 .f32) (main_arg9 : FVec F S128x129 .f32) (main_arg10 : FVec F S256x256 .f32) (main_arg11 : FVec F S256 .f32) (main_arg12 : FVec F S256x2 .f32) (main_arg13 : FVec F S2 .f32) : IVec S_ 1 :=
  let main_v0 : FVec F S131072x3 .f32 := Host.absf main_arg0
  let main_cst : FVec F S_ .f32 := constant S_ .f32 0x7F800000#32
  let main_v1 : FVec F S131072x3 .f32 := broadcastInDim S131072x3 ![] bcast_S_S131072x3 main_cst
  let main_v2 : IVec S131072x3 1 := cmpf .olt main_v0 main_v1
  let main_c : IVec S_ 1 := constantI S_ 1 1#1
  let main_v3 : IVec S_ 1 := (fun x v => Host.reduce IntOp.andi x v reducesTo_S131072x3_S_d0_1 h_S_) main_v2 main_c
  let main_v4 : FVec F S131072x256 .f32 := Host.absf main_arg1
  let main_cst_0 : FVec F S_ .f32 := constant S_ .f32 0x7F800000#32
  let main_v5 : FVec F S131072x256 .f32 := broadcastInDim S131072x256 ![] bcast_S_S131072x256 main_cst_0
  let main_v6 : IVec S131072x256 1 := cmpf .olt main_v4 main_v5
  let main_c_1 : IVec S_ 1 := constantI S_ 1 1#1
  let main_v7 : IVec S_ 1 := (fun x v => Host.reduce IntOp.andi x v reducesTo_S131072x256_S_d0_1 h_S_) main_v6 main_c_1
  let main_v8 : IVec S_ 1 := andi main_v3 main_v7
  let main_v9 : FVec F S131072x3x256 .f32 := Host.absf main_arg2
  let main_cst_2 : FVec F S_ .f32 := constant S_ .f32 0x7F800000#32
  let main_v10 : FVec F S131072x3x256 .f32 := broadcastInDim S131072x3x256 ![] bcast_S_S131072x3x256 main_cst_2
  let main_v11 : IVec S131072x3x256 1 := cmpf .olt main_v9 main_v10
  let main_c_3 : IVec S_ 1 := constantI S_ 1 1#1
  let main_v12 : IVec S_ 1 := (fun x v => Host.reduce IntOp.andi x v reducesTo_S131072x3x256_S_d0_1_2 h_S_) main_v11 main_c_3
  let main_v13 : IVec S_ 1 := andi main_v8 main_v12
  let main_v14 : FVec F S256x384 .f32 := Host.absf main_arg4
  let main_cst_4 : FVec F S_ .f32 := constant S_ .f32 0x7F800000#32
  let main_v15 : FVec F S256x384 .f32 := broadcastInDim S256x384 ![] bcast_S_S256x384 main_cst_4
  let main_v16 : IVec S256x384 1 := cmpf .olt main_v14 main_v15
  fn_part1 (F := F) main_arg5 main_arg6 main_arg7 main_arg8 main_arg9 main_arg10 main_arg11 main_arg12 main_arg13 main_v13 main_v16
-- ==== Kernel.lean ====
abbrev S131072x3 : Shape := ⟨2, ![131072, 3]⟩
abbrev S131072x256 : Shape := ⟨2, ![131072, 256]⟩
abbrev S131072x3x256 : Shape := ⟨3, ![131072, 3, 256]⟩
abbrev S131072 : Shape := ⟨1, ![131072]⟩
abbrev S256x384 : Shape := ⟨2, ![256, 384]⟩
abbrev S512x512 : Shape := ⟨2, ![512, 512]⟩
abbrev S512 : Shape := ⟨1, ![512]⟩
abbrev S512x256 : Shape := ⟨2, ![512, 256]⟩
abbrev S256 : Shape := ⟨1, ![256]⟩
abbrev S128x129 : Shape := ⟨2, ![128, 129]⟩
abbrev S256x256 : Shape := ⟨2, ![256, 256]⟩
abbrev S256x2 : Shape := ⟨2, ![256, 2]⟩
abbrev S2 : Shape := ⟨1, ![2]⟩
abbrev S131072x768 : Shape := ⟨2, ![131072, 768]⟩
abbrev S1024x256 : Shape := ⟨2, ![1024, 256]⟩
abbrev S1024x768 : Shape := ⟨2, ![1024, 768]⟩
abbrev S1024x3 : Shape := ⟨2, ![1024, 3]⟩
abbrev S1024x384 : Shape := ⟨2, ![1024, 384]⟩
abbrev S1024x128 : Shape := ⟨2, ![1024, 128]⟩
abbrev S1024x512 : Shape := ⟨2, ![1024, 512]⟩
abbrev S1x512 : Shape := ⟨2, ![1, 512]⟩
abbrev S1x256 : Shape := ⟨2, ![1, 256]⟩
abbrev S1024x129 : Shape := ⟨2, ![1024, 129]⟩
abbrev S1024x1 : Shape := ⟨2, ![1024, 1]⟩
abbrev S1024x2 : Shape := ⟨2, ![1024, 2]⟩
abbrev S1x2 : Shape := ⟨2, ![1, 2]⟩
abbrev S_ : Shape := ⟨0, ![]⟩
abbrev S2048x3 : Shape := ⟨2, ![2048, 3]⟩
abbrev S131072x1 : Shape := ⟨2, ![131072, 1]⟩
abbrev S2048 : Shape := ⟨1, ![2048]⟩
abbrev S2048x1 : Shape := ⟨2, ![2048, 1]⟩

abbrev nBuf : Space → Nat
  | .hbm => 37
  | .vmem => 18
  | .smem => 0
  | _ => 0

abbrev bufTy : (tb : Table) → Fin (tcTables nBuf tb) → BufTy
  | .hbm, ⟨0, _⟩ => ⟨S131072x3, .f32⟩
  | .hbm, ⟨1, _⟩ => ⟨S131072x256, .f32⟩
  | .hbm, ⟨2, _⟩ => ⟨S131072x3x256, .f32⟩
  | .hbm, ⟨3, _⟩ => ⟨S131072, .i32⟩
  | .hbm, ⟨4, _⟩ => ⟨S256x384, .f32⟩
  | .hbm, ⟨5, _⟩ => ⟨S512x512, .f32⟩
  | .hbm, ⟨6, _⟩ => ⟨S512, .f32⟩
  | .hbm, ⟨7, _⟩ => ⟨S512x256, .f32⟩
  | .hbm, ⟨8, _⟩ => ⟨S256, .f32⟩
  | .hbm, ⟨9, _⟩ => ⟨S128x129, .f32⟩
  | .hbm, ⟨10, _⟩ => ⟨S256x256, .f32⟩
  | .hbm, ⟨11, _⟩ => ⟨S256, .f32⟩
  | .hbm, ⟨12, _⟩ => ⟨S256x2, .f32⟩
  | .hbm, ⟨13, _⟩ => ⟨S2, .f32⟩
  | .hbm, ⟨14, _⟩ => ⟨S131072x768, .f32⟩
  | .hbm, ⟨15, _⟩ => ⟨S256x384, .bf16⟩
  | .hbm, ⟨16, _⟩ => ⟨S512x512, .bf16⟩
  | .hbm, ⟨17, _⟩ => ⟨S512x256, .bf16⟩
  | .hbm, ⟨18, _⟩ => ⟨S128x129, .bf16⟩
  | .hbm, ⟨19, _⟩ => ⟨S256x256, .bf16⟩
  | .hbm, ⟨20, _⟩ => ⟨S256x2, .bf16⟩
  | .hbm, ⟨21, _⟩ => ⟨S131072x3, .f32⟩
  | .hbm, ⟨22, _⟩ => ⟨S_, .f32⟩
  | .hbm, ⟨23, _⟩ => ⟨S2048x3, .f32⟩
  | .hbm, ⟨24, _⟩ => ⟨S131072x1, .i32⟩
  | .hbm, ⟨25, _⟩ => ⟨S2048x3, .f32⟩
  | .hbm, ⟨26, _⟩ => ⟨S2048x3, .f32⟩
  | .hbm, ⟨27, _⟩ => ⟨S_, .f32⟩
  | .hbm, ⟨28, _⟩ => ⟨S2048, .f32⟩
  | .hbm, ⟨29, _⟩ => ⟨S2048x1, .f32⟩
  | .hbm, ⟨30, _⟩ => ⟨S2048x1, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S_, .f32⟩
  | .hbm, ⟨35, _⟩ => ⟨S2048x1, .f32⟩
  | .hbm, ⟨36, _⟩ => ⟨S2048x1, .f32⟩
  | .local _ .vmem, ⟨0, _⟩ => ⟨S1024x256, .f32⟩
  | .local _ .vmem, ⟨1, _⟩ => ⟨S1024x256, .f32⟩
  | .local _ .vmem, ⟨2, _⟩ => ⟨S1024x768, .f32⟩
  | .local _ .vmem, ⟨3, _⟩ => ⟨S1024x768, .f32⟩
  | .local _ .vmem, ⟨4, _⟩ => ⟨S1024x3, .f32⟩
  | .local _ .vmem, ⟨5, _⟩ => ⟨S1024x3, .f32⟩
  | .local _ .vmem, ⟨6, _⟩ => ⟨S256x384, .bf16⟩
  | .local _ .vmem, ⟨7, _⟩ => ⟨S512x512, .f32⟩
  | .local _ .vmem, ⟨8, _⟩ => ⟨S512, .f32⟩
  | .local _ .vmem, ⟨9, _⟩ => ⟨S512x256, .bf16⟩
  | .local _ .vmem, ⟨10, _⟩ => ⟨S256, .f32⟩
  | .local _ .vmem, ⟨11, _⟩ => ⟨S128x129, .bf16⟩
  | .local _ .vmem, ⟨12, _⟩ => ⟨S256x256, .bf16⟩
  | .local _ .vmem, ⟨13, _⟩ => ⟨S256, .f32⟩
  | .local _ .vmem, ⟨14, _⟩ => ⟨S256x2, .bf16⟩
  | .local _ .vmem, ⟨15, _⟩ => ⟨S2, .f32⟩
  | .local _ .vmem, ⟨16, _⟩ => ⟨S1024x3, .f32⟩
  | .local _ .vmem, ⟨17, _⟩ => ⟨S1024x3, .f32⟩
  | _, _ => ⟨S131072x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_call0_v0 : Ref sig .tc := ⟨.hbm, 26, rfl⟩
abbrev main_call0_cst : Ref sig .tc := ⟨.hbm, 27, rfl⟩
abbrev main_call0_v1 : Ref sig .tc := ⟨.hbm, 28, rfl⟩
abbrev main_call0_v2 : Ref sig .tc := ⟨.hbm, 29, rfl⟩
abbrev main_v11 : Ref sig .tc := ⟨.hbm, 30, rfl⟩
abbrev main_cst_0 : Ref sig .tc := ⟨.hbm, 31, rfl⟩
abbrev main_v12 : Ref sig .tc := ⟨.hbm, 32, rfl⟩
abbrev main_v13 : Ref sig .tc := ⟨.hbm, 33, rfl⟩
abbrev main_cst_1 : Ref sig .tc := ⟨.hbm, 34, rfl⟩
abbrev main_v14 : Ref sig .tc := ⟨.hbm, 35, rfl⟩
abbrev main_v15 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x129 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x2 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x3 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  shapeCasts_S131072x3x256_S131072x768 : S131072x3x256.ShapeCasts S131072x768
  bitsLt_bf16_f32 : FTy.bits .bf16 < FTy.bits .f32
  inb_S1024x256_S1024x256_0_0 : ∀ a, (![0, 0] : Fin 2 → Nat) a + S1024x256.size a ≤ S1024x256.size a
  h_S1024x256 : 0 < S1024x256.numel
  inb_S256x384_S256x384_0_0 : ∀ a, (![0, 0] : Fin 2 → Nat) a + S256x384.size a ≤ S256x384.size a
  h_S256x384 : 0 < S256x384.numel
  shapeCasts_S256x384_S256x384 : S256x384.ShapeCasts S256x384
  inb_S512x512_S512x512_0_0 : ∀ a, (![0, 0] : Fin 2 → Nat) a + S512x512.size a ≤ S512x512.size a
  h_S512x512 : 0 < S512x512.numel
  inb_S512_S512_0 : ∀ a, (![0] : Fin 1 → Nat) a + S512.size a ≤ S512.size a
  h_S512 : 0 < S512.numel
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256_S256_0 : ∀ a, (![0] : Fin 1 → Nat) a + S256.size a ≤ S256.size a
  h_S256 : 0 < S256.numel
  inb_S1024x768_S1024x256_0_0 : ∀ a, (![0, 0] : Fin 2 → Nat) a + S1024x256.size a ≤ S1024x768.size a
  shapeCasts_S1024x256_S1024x256 : S1024x256.ShapeCasts S1024x256
  slices_S1024x384_o0_0_S1024x256 : S1024x384.Slices ![0, 0] S1024x256
  slices_S1024x384_o0_256_S1024x128 : S1024x384.Slices ![0, 256] S1024x128
  inb_S1024x768_S1024x256_0_256 : ∀ a, (![0, 256] : Fin 2 → Nat) a + S1024x256.size a ≤ S1024x768.size a
  inb_S1024x768_S1024x256_0_512 : ∀ a, (![0, 512] : Fin 2 → Nat) a + S1024x256.size a ≤ S1024x768.size a
  concatenates_S1024x256_S1024x256_S1024x512_d1 : Shape.Concatenates [S1024x256, S1024x256] S1024x512 1
  shapeCasts_S512_S1x512 : S512.ShapeCasts S1x512
  broadcasts_S1x512_S1024x512 : S1x512.Broadcasts S1024x512
  shapeCasts_S256_S1x256 : S256.ShapeCasts S1x256
  broadcasts_S1x256_S1024x256 : S1x256.Broadcasts S1024x256
  slices_S1024x256_o0_0_S1024x128 : S1024x256.Slices ![0, 0] S1024x128
  slices_S1024x256_o0_128_S1024x128 : S1024x256.Slices ![0, 128] S1024x128
  inb_S128x129_S128x129_0_0 : ∀ a, (![0, 0] : Fin 2 → Nat) a + S128x129.size a ≤ S128x129.size a
  h_S128x129 : 0 < S128x129.numel
  shapeCasts_S128x129_S128x129 : S128x129.ShapeCasts S128x129
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x2_S256x2_0_0 : ∀ a, (![0, 0] : Fin 2 → Nat) a + S256x2.size a ≤ S256x2.size a
  h_S256x2 : 0 < S256x2.numel
  shapeCasts_S256x2_S256x2 : S256x2.ShapeCasts S256x2
  inb_S2_S2_0 : ∀ a, (![0] : Fin 1 → Nat) a + S2.size a ≤ S2.size a
  h_S2 : 0 < S2.numel
  slices_S1024x129_o0_0_S1024x128 : S1024x129.Slices ![0, 0] S1024x128
  slices_S1024x129_o0_128_S1024x1 : S1024x129.Slices ![0, 128] S1024x1
  concatenates_S1024x128_S1024x128_S1024x256_d1 : Shape.Concatenates [S1024x128, S1024x128] S1024x256 1
  shapeCasts_S2_S1x2 : S2.ShapeCasts S1x2
  broadcasts_S1x2_S1024x2 : S1x2.Broadcasts S1024x2
  slices_S1024x2_o0_0_S1024x1 : S1024x2.Slices ![0, 0] S1024x1
  slices_S1024x2_o0_1_S1024x1 : S1024x2.Slices ![0, 1] S1024x1
  concatenates_S1024x1_S1024x1_S1024x1_S1024x3_d1 : Shape.Concatenates [S1024x1, S1024x1, S1024x1] S1024x3 1
  inb_S1024x3_S1024x3_0_0 : ∀ a, (![0, 0] : Fin 2 → Nat) a + S1024x3.size a ≤ S1024x3.size a
  h_S1024x3 : 0 < S1024x3.numel
  broadcasts_S1024x1_S1024x3 : S1024x1.Broadcasts S1024x3
  bcast_S_S2048x3 : S_.BroadcastsInDim S2048x3 (![] : Fin 0 → Fin S2048x3.rank)
  bcast_S131072_S131072x1_0 : S131072.BroadcastsInDim S131072x1 (![0] : Fin 1 → Fin S131072x1.rank)
  reducesTo_S2048x3_S2048_d1 : S2048x3.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  dot_S1024x256_S256x384_S1024x384_1_0_0_1_n_n_wf : DotDims.WF S1024x256 S256x384 S1024x384 [1] [0] [0] [1] [] []
  dot_S1024x512_S512x512_S1024x512_1_0_0_1_n_n_wf : DotDims.WF S1024x512 S512x512 S1024x512 [1] [0] [0] [1] [] []
  dot_S1024x512_S512x256_S1024x256_1_0_0_1_n_n_wf : DotDims.WF S1024x512 S512x256 S1024x256 [1] [0] [0] [1] [] []
  dot_S1024x128_S128x129_S1024x129_1_0_0_1_n_n_wf : DotDims.WF S1024x128 S128x129 S1024x129 [1] [0] [0] [1] [] []
  dot_S1024x256_S256x256_S1024x256_1_0_0_1_n_n_wf : DotDims.WF S1024x256 S256x256 S1024x256 [1] [0] [0] [1] [] []
  dot_S1024x256_S256x2_S1024x2_1_0_0_1_n_n_wf : DotDims.WF S1024x256 S256x2 S1024x2 [1] [0] [0] [1] [] []
  scatter_S2048x3_S131072x1_S131072x3_1_0_0_1_wf : ScatterDims.WF S2048x3 S131072x1 S131072x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S131072x256.size a
  hwx0_0 : ∀ i : grid0.Coords, EltTy.bits .f32 = 32 ∨ (Rect.block (s := S131072x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x768.size a ≤ S131072x768.size a
  hwx0_1 : ∀ i : grid0.Coords, EltTy.bits .f32 = 32 ∨ (Rect.block (s := S131072x768) S1024x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x3.size a ≤ S131072x3.size a
  hwx0_2 : ∀ i : grid0.Coords, EltTy.bits .f32 = 32 ∨ (Rect.block (s := S131072x3) S1024x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x384.size a ≤ S256x384.size a
  hwx0_3 : ∀ i : grid0.Coords, EltTy.bits .bf16 = 32 ∨ (Rect.block (s := S256x384) S256x384.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S512x256.size a
  hwx0_6 : ∀ i : grid0.Coords, EltTy.bits .bf16 = 32 ∨ (Rect.block (s := S512x256) S512x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x129.size a ≤ S128x129.size a
  hwx0_8 : ∀ i : grid0.Coords, EltTy.bits .bf16 = 32 ∨ (Rect.block (s := S128x129) S128x129.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .bf16 = 32 ∨ (Rect.block (s := S256x256) S256x256.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256.size a ≤ S256.size a
  hwx0_10 : ∀ i : grid0.Coords, EltTy.bits .f32 = 32 ∨ (Rect.block (s := S256) S256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x2.size a ≤ S256x2.size a
  hwx0_11 : ∀ i : grid0.Coords, EltTy.bits .bf16 = 32 ∨ (Rect.block (s := S256x2) S256x2.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S2.size a ≤ S2.size a
  hwx0_12 : ∀ i : grid0.Coords, EltTy.bits .f32 = 32 ∨ (Rect.block (s := S2) S2.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1024x3.size a ≤ S131072x3.size a
  hwx0_13 : ∀ i : grid0.Coords, EltTy.bits .f32 = 32 ∨ (Rect.block (s := S131072x3) S1024x3.size (cc0_transform_13 i) (hinb0_13 i)).WholeWords (EltTy.packing .f32)

variable [Facts₀]

def dot_S1024x256_S256x384_S1024x384_1_0_0_1_n_n : DotDims S1024x256 S256x384 S1024x384 where
  lhsContracting := [1]
  rhsContracting := [0]
  lhsNonContracting := [0]
  rhsNonContracting := [1]
  lhsBatch := []
  rhsBatch := []
  wf := dot_S1024x256_S256x384_S1024x384_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x128_S128x129_S1024x129_1_0_0_1_n_n : DotDims S1024x128 S128x129 S1024x129 where
  lhsContracting := [1]
  rhsContracting := [0]
  lhsNonContracting := [0]
  rhsNonContracting := [1]
  lhsBatch := []
  rhsBatch := []
  wf := dot_S1024x128_S128x129_S1024x129_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x2_S1024x2_1_0_0_1_n_n : DotDims S1024x256 S256x2 S1024x2 where
  lhsContracting := [1]
  rhsContracting := [0]
  lhsNonContracting := [0]
  rhsNonContracting := [1]
  lhsBatch := []
  rhsBatch := []
  wf := dot_S1024x256_S256x2_S1024x2_1_0_0_1_n_n_wf
def scatter_S2048x3_S131072x1_S131072x3_1_0_0_1 : ScatterDims S2048x3 S131072x1 S131072x3 where
  updateWindowDims := [1]
  insertedWindowDims := [0]
  scatterDimsToOperandDims := [0]
  indexVectorDim := 1
  wf := scatter_S2048x3_S131072x1_S131072x3_1_0_0_1_wf

abbrev win0_0 : Pipeline.Window sig grid0 :=
  Pipeline.Window.ofSpec (Memref.whole main_arg1) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1024x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S512x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S128x129.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6) S256x2.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg13) S2.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v7) S1024x3.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S131072x3 : Shape := ⟨2, ![131072, 3]⟩
abbrev S131072x256 : Shape := ⟨2, ![131072, 256]⟩
abbrev S131072x3x256 : Shape := ⟨3, ![131072, 3, 256]⟩
abbrev S131072 : Shape := ⟨1, ![131072]⟩
abbrev S256x384 : Shape := ⟨2, ![256, 384]⟩
abbrev S512x512 : Shape := ⟨2, ![512, 512]⟩
abbrev S512 : Shape := ⟨1, ![512]⟩
abbrev S512x256 : Shape := ⟨2, ![512, 256]⟩
abbrev S256 : Shape := ⟨1, ![256]⟩
abbrev S128x129 : Shape := ⟨2, ![128, 129]⟩
abbrev S256x256 : Shape := ⟨2, ![256, 256]⟩
abbrev S256x2 : Shape := ⟨2, ![256, 2]⟩
abbrev S2 : Shape := ⟨1, ![2]⟩
abbrev S131072x3x384 : Shape := ⟨3, ![131072, 3, 384]⟩
abbrev S131072x3x128 : Shape := ⟨3, ![131072, 3, 128]⟩
abbrev S_ : Shape := ⟨0, ![]⟩
abbrev S131072x512 : Shape := ⟨2, ![131072, 512]⟩
abbrev S1x512 : Shape := ⟨2, ![1, 512]⟩
abbrev S1x256 : Shape := ⟨2, ![1, 256]⟩
abbrev S131072x128 : Shape := ⟨2, ![131072, 128]⟩
abbrev S131072x1x128 : Shape := ⟨3, ![131072, 1, 128]⟩
abbrev S131072x3x129 : Shape := ⟨3, ![131072, 3, 129]⟩
abbrev S131072x3x1 : Shape := ⟨3, ![131072, 3, 1]⟩
abbrev S131072x2 : Shape := ⟨2, ![131072, 2]⟩
abbrev S1x2 : Shape := ⟨2, ![1, 2]⟩
abbrev S131072x1 : Shape := ⟨2, ![131072, 1]⟩
abbrev S131072x1x1 : Shape := ⟨3, ![131072, 1, 1]⟩
abbrev S2048x3 : Shape := ⟨2, ![2048, 3]⟩
abbrev S2048 : Shape := ⟨1, ![2048]⟩
abbrev S2048x1 : Shape := ⟨2, ![2048, 1]⟩

abbrev nBuf : Space → Nat
  | .hbm => 108
  | .vmem => 0
  | .smem => 0
  | _ => 0

abbrev bufTy : (tb : Table) → Fin (tcTables nBuf tb) → BufTy
  | .hbm, ⟨0, _⟩ => ⟨S131072x3, .f32⟩
  | .hbm, ⟨1, _⟩ => ⟨S131072x256, .f32⟩
  | .hbm, ⟨2, _⟩ => ⟨S131072x3x256, .f32⟩
  | .hbm, ⟨3, _⟩ => ⟨S131072, .i32⟩
  | .hbm, ⟨4, _⟩ => ⟨S256x384, .f32⟩
  | .hbm, ⟨5, _⟩ => ⟨S512x512, .f32⟩
  | .hbm, ⟨6, _⟩ => ⟨S512, .f32⟩
  | .hbm, ⟨7, _⟩ => ⟨S512x256, .f32⟩
  | .hbm, ⟨8, _⟩ => ⟨S256, .f32⟩
  | .hbm, ⟨9, _⟩ => ⟨S128x129, .f32⟩
  | .hbm, ⟨10, _⟩ => ⟨S256x256, .f32⟩
  | .hbm, ⟨11, _⟩ => ⟨S256, .f32⟩
  | .hbm, ⟨12, _⟩ => ⟨S256x2, .f32⟩
  | .hbm, ⟨13, _⟩ => ⟨S2, .f32⟩
  | .hbm, ⟨14, _⟩ => ⟨S131072x3x384, .f32⟩
  | .hbm, ⟨15, _⟩ => ⟨S131072x3x256, .f32⟩
  | .hbm, ⟨16, _⟩ => ⟨S131072x3x128, .f32⟩
  | .hbm, ⟨17, _⟩ => ⟨S131072x3x256, .f32⟩
  | .hbm, ⟨18, _⟩ => ⟨S_, .f32⟩
  | .hbm, ⟨19, _⟩ => ⟨S131072x256, .f32⟩
  | .hbm, ⟨20, _⟩ => ⟨S131072x256, .f32⟩
  | .hbm, ⟨21, _⟩ => ⟨S131072x512, .f32⟩
  | .hbm, ⟨22, _⟩ => ⟨S131072x512, .f32⟩
  | .hbm, ⟨23, _⟩ => ⟨S1x512, .f32⟩
  | .hbm, ⟨24, _⟩ => ⟨S131072x512, .f32⟩
  | .hbm, ⟨25, _⟩ => ⟨S131072x512, .f32⟩
  | .hbm, ⟨26, _⟩ => ⟨S131072x512, .f32⟩
  | .hbm, ⟨27, _⟩ => ⟨S131072x512, .f32⟩
  | .hbm, ⟨28, _⟩ => ⟨S_, .f32⟩
  | .hbm, ⟨29, _⟩ => ⟨S131072x512, .f32⟩
  | .hbm, ⟨30, _⟩ => ⟨S131072x512, .f32⟩
  | .hbm, ⟨31, _⟩ => ⟨S_, .f32⟩
  | .hbm, ⟨32, _⟩ => ⟨S131072x512, .f32⟩
  | .hbm, ⟨33, _⟩ => ⟨S131072x512, .f32⟩
  | .hbm, ⟨34, _⟩ => ⟨S131072x512, .f32⟩
  | .hbm, ⟨35, _⟩ => ⟨S131072x256, .f32⟩
  | .hbm, ⟨36, _⟩ => ⟨S1x256, .f32⟩
  | .hbm, ⟨37, _⟩ => ⟨S131072x256, .f32⟩
  | .hbm, ⟨38, _⟩ => ⟨S131072x256, .f32⟩
  | .hbm, ⟨39, _⟩ => ⟨S131072x128, .f32⟩
  | .hbm, ⟨40, _⟩ => ⟨S131072x128, .f32⟩
  | .hbm, ⟨41, _⟩ => ⟨S131072x1x128, .f32⟩
  | .hbm, ⟨42, _⟩ => ⟨S131072x3x128, .f32⟩
  | .hbm, ⟨43, _⟩ => ⟨S131072x3x128, .f32⟩
  | .hbm, ⟨44, _⟩ => ⟨S131072x128, .f32⟩
  | .hbm, ⟨45, _⟩ => ⟨S131072x128, .f32⟩
  | .hbm, ⟨46, _⟩ => ⟨S_, .f32⟩
  | .hbm, ⟨47, _⟩ => ⟨S131072x128, .f32⟩
  | .hbm, ⟨48, _⟩ => ⟨S131072x128, .f32⟩
  | .hbm, ⟨49, _⟩ => ⟨S_, .f32⟩
  | .hbm, ⟨50, _⟩ => ⟨S131072x128, .f32⟩
  | .hbm, ⟨51, _⟩ => ⟨S131072x128, .f32⟩
  | .hbm, ⟨52, _⟩ => ⟨S131072x128, .f32⟩
  | .hbm, ⟨53, _⟩ => ⟨S131072x3x129, .f32⟩
  | .hbm, ⟨54, _⟩ => ⟨S131072x3x128, .f32⟩
  | .hbm, ⟨55, _⟩ => ⟨S131072x3x1, .f32⟩
  | .hbm, ⟨56, _⟩ => ⟨S131072x3x128, .f32⟩
  | .hbm, ⟨57, _⟩ => ⟨S_, .f32⟩
  | .hbm, ⟨58, _⟩ => ⟨S131072x128, .f32⟩
  | .hbm, ⟨59, _⟩ => ⟨S131072x128, .f32⟩
  | .hbm, ⟨60, _⟩ => ⟨S131072x256, .f32⟩
  | .hbm, ⟨61, _⟩ => ⟨S131072x256, .f32⟩
  | .hbm, ⟨62, _⟩ => ⟨S1x256, .f32⟩
  | .hbm, ⟨63, _⟩ => ⟨S131072x256, .f32⟩
  | .hbm, ⟨64, _⟩ => ⟨S131072x256, .f32⟩
  | .hbm, ⟨65, _⟩ => ⟨S131072x256, .f32⟩
  | .hbm, ⟨66, _⟩ => ⟨S131072x256, .f32⟩
  | .hbm, ⟨67, _⟩ => ⟨S_, .f32⟩
  | .hbm, ⟨68, _⟩ => ⟨S131072x256, .f32⟩
  | .hbm, ⟨69, _⟩ => ⟨S131072x256, .f32⟩
  | .hbm, ⟨70, _⟩ => ⟨S_, .f32⟩
  | .hbm, ⟨71, _⟩ => ⟨S131072x256, .f32⟩
  | .hbm, ⟨72, _⟩ => ⟨S131072x256, .f32⟩
  | .hbm, ⟨73, _⟩ => ⟨S131072x256, .f32⟩
  | .hbm, ⟨74, _⟩ => ⟨S131072x2, .f32⟩
  | .hbm, ⟨75, _⟩ => ⟨S1x2, .f32⟩
  | .hbm, ⟨76, _⟩ => ⟨S131072x2, .f32⟩
  | .hbm, ⟨77, _⟩ => ⟨S131072x2, .f32⟩
  | .hbm, ⟨78, _⟩ => ⟨S131072x1, .f32⟩
  | .hbm, ⟨79, _⟩ => ⟨S131072x1, .f32⟩
  | .hbm, ⟨80, _⟩ => ⟨S131072x1x1, .f32⟩
  | .hbm, ⟨81, _⟩ => ⟨S131072x3x1, .f32⟩
  | .hbm, ⟨82, _⟩ => ⟨S131072x3x1, .f32⟩
  | .hbm, ⟨83, _⟩ => ⟨S131072x3, .f32⟩
  | .hbm, ⟨84, _⟩ => ⟨S_, .f32⟩
  | .hbm, ⟨85, _⟩ => ⟨S131072x1, .f32⟩
  | .hbm, ⟨86, _⟩ => ⟨S131072x1, .f32⟩
  | .hbm, ⟨87, _⟩ => ⟨S_, .f32⟩
  | .hbm, ⟨88, _⟩ => ⟨S131072x1, .f32⟩
  | .hbm, ⟨89, _⟩ => ⟨S131072x1, .f32⟩
  | .hbm, ⟨90, _⟩ => ⟨S131072x3, .f32⟩
  | .hbm, ⟨91, _⟩ => ⟨S131072x3, .f32⟩
  | .hbm, ⟨92, _⟩ => ⟨S131072x3, .f32⟩
  | .hbm, ⟨93, _⟩ => ⟨S_, .f32⟩
  | .hbm, ⟨94, _⟩ => ⟨S2048x3, .f32⟩
  | .hbm, ⟨95, _⟩ => ⟨S131072x1, .i32⟩
  | .hbm, ⟨96, _⟩ => ⟨S2048x3, .f32⟩
  | .hbm, ⟨97, _⟩ => ⟨S2048x3, .f32⟩
  | .hbm, ⟨98, _⟩ => ⟨S_, .f32⟩
  | .hbm, ⟨99, _⟩ => ⟨S2048, .f32⟩
  | .hbm, ⟨100, _⟩ => ⟨S2048x1, .f32⟩
  | .hbm, ⟨101, _⟩ => ⟨S2048x1, .f32⟩
  | .hbm, ⟨102, _⟩ => ⟨S_, .f32⟩
  | .hbm, ⟨103, _⟩ => ⟨S2048x1, .f32⟩
  | .hbm, ⟨104, _⟩ => ⟨S2048x1, .f32⟩
  | .hbm, ⟨105, _⟩ => ⟨S_, .f32⟩
  | .hbm, ⟨106, _⟩ => ⟨S2048x1, .f32⟩
  | .hbm, ⟨107, _⟩ => ⟨S2048x1, .f32⟩
  | _, _ => ⟨S131072x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_call0_v0 : Ref sig .tc := ⟨.hbm, 17, rfl⟩
abbrev main_call0_cst : Ref sig .tc := ⟨.hbm, 18, rfl⟩
abbrev main_call0_v1 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_call1_v0 : Ref sig .tc := ⟨.hbm, 26, rfl⟩
abbrev main_call1_v1 : Ref sig .tc := ⟨.hbm, 27, rfl⟩
abbrev main_call1_cst : Ref sig .tc := ⟨.hbm, 28, rfl⟩
abbrev main_call1_v2 : Ref sig .tc := ⟨.hbm, 29, rfl⟩
abbrev main_call1_v3 : Ref sig .tc := ⟨.hbm, 30, rfl⟩
abbrev main_call1_cst_0 : Ref sig .tc := ⟨.hbm, 31, rfl⟩
abbrev main_call1_v4 : Ref sig .tc := ⟨.hbm, 32, rfl⟩
abbrev main_call1_v5 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_call2_v0 : Ref sig .tc := ⟨.hbm, 44, rfl⟩
abbrev main_call2_v1 : Ref sig .tc := ⟨.hbm, 45, rfl⟩
abbrev main_call2_cst : Ref sig .tc := ⟨.hbm, 46, rfl⟩
abbrev main_call2_v2 : Ref sig .tc := ⟨.hbm, 47, rfl⟩
abbrev main_call2_v3 : Ref sig .tc := ⟨.hbm, 48, rfl⟩
abbrev main_call2_cst_0 : Ref sig .tc := ⟨.hbm, 49, rfl⟩
abbrev main_call2_v4 : Ref sig .tc := ⟨.hbm, 50, rfl⟩
abbrev main_call2_v5 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_call3_v0 : Ref sig .tc := ⟨.hbm, 56, rfl⟩
abbrev main_call3_cst : Ref sig .tc := ⟨.hbm, 57, rfl⟩
abbrev main_call3_v1 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_call4_v0 : Ref sig .tc := ⟨.hbm, 65, rfl⟩
abbrev main_call4_v1 : Ref sig .tc := ⟨.hbm, 66, rfl⟩
abbrev main_call4_cst : Ref sig .tc := ⟨.hbm, 67, rfl⟩
abbrev main_call4_v2 : Ref sig .tc := ⟨.hbm, 68, rfl⟩
abbrev main_call4_v3 : Ref sig .tc := ⟨.hbm, 69, rfl⟩
abbrev main_call4_cst_0 : Ref sig .tc := ⟨.hbm, 70, rfl⟩
abbrev main_call4_v4 : Ref sig .tc := ⟨.hbm, 71, rfl⟩
abbrev main_call4_v5 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_cst : Ref sig .tc := ⟨.hbm, 84, rfl⟩
abbrev main_v40 : Ref sig .tc := ⟨.hbm, 85, rfl⟩
abbrev main_v41 : Ref sig .tc := ⟨.hbm, 86, rfl⟩
abbrev main_cst_0 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_cst_1 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_call5_v0 : Ref sig .tc := ⟨.hbm, 97, rfl⟩
abbrev main_call5_cst : Ref sig .tc := ⟨.hbm, 98, rfl⟩
abbrev main_call5_v1 : Ref sig .tc := ⟨.hbm, 99, rfl⟩
abbrev main_call5_v2 : Ref sig .tc := ⟨.hbm, 100, rfl⟩
abbrev main_v50 : Ref sig .tc := ⟨.hbm, 101, rfl⟩
abbrev main_cst_2 : Ref sig .tc := ⟨.hbm, 102, rfl⟩
abbrev main_v51 : Ref sig .tc := ⟨.hbm, 103, rfl⟩
abbrev main_v52 : Ref sig .tc := ⟨.hbm, 104, rfl⟩
abbrev main_cst_3 : Ref sig .tc := ⟨.hbm, 105, rfl⟩
abbrev main_v53 : Ref sig .tc := ⟨.hbm, 106, rfl⟩
abbrev main_v54 : Ref sig .tc := ⟨.hbm, 107, rfl⟩

abbrev nD : Nat := 1
abbrev τ : Topo := Topo.v7x

variable {F : FTy → Type} [FloatOps F]

class Facts₀ : Prop where
  slices_S131072x3x384_S131072x3x256_0_0_0 : S131072x3x384.Slices ![0, 0, 0] S131072x3x256
  slices_S131072x3x384_S131072x3x128_0_0_256 : S131072x3x384.Slices ![0, 0, 256] S131072x3x128
  reducesTo_S131072x3x256_S131072x256_d1 : S131072x3x256.ReducesTo [1] S131072x256
  h_S_ : 0 < S_.numel
  concatenates_S131072x256_S131072x256_S131072x512_d1 : Shape.Concatenates [S131072x256, S131072x256] S131072x512 1
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  bcast_S_S131072x512 : S_.BroadcastsInDim S131072x512 (![] : Fin 0 → Fin S131072x512.rank)
  bcast_S256_S1x256_1 : S256.BroadcastsInDim S1x256 (![1] : Fin 1 → Fin S1x256.rank)
  bcast_S1x256_S131072x256_0_1 : S1x256.BroadcastsInDim S131072x256 (![0, 1] : Fin 2 → Fin S131072x256.rank)
  slices_S131072x256_S131072x128_0_0 : S131072x256.Slices ![0, 0] S131072x128
  slices_S131072x256_S131072x128_0_128 : S131072x256.Slices ![0, 128] S131072x128
  bcast_S131072x128_S131072x1x128_0_2 : S131072x128.BroadcastsInDim S131072x1x128 (![0, 2] : Fin 2 → Fin S131072x1x128.rank)
  bcast_S131072x1x128_S131072x3x128_0_1_2 : S131072x1x128.BroadcastsInDim S131072x3x128 (![0, 1, 2] : Fin 3 → Fin S131072x3x128.rank)
  bcast_S_S131072x128 : S_.BroadcastsInDim S131072x128 (![] : Fin 0 → Fin S131072x128.rank)
  slices_S131072x3x129_S131072x3x128_0_0_0 : S131072x3x129.Slices ![0, 0, 0] S131072x3x128
  slices_S131072x3x129_S131072x3x1_0_0_128 : S131072x3x129.Slices ![0, 0, 128] S131072x3x1
  reducesTo_S131072x3x128_S131072x128_d1 : S131072x3x128.ReducesTo [1] S131072x128
  concatenates_S131072x128_S131072x128_S131072x256_d1 : Shape.Concatenates [S131072x128, S131072x128] S131072x256 1
  bcast_S_S131072x256 : S_.BroadcastsInDim S131072x256 (![] : Fin 0 → Fin S131072x256.rank)
  bcast_S2_S1x2_1 : S2.BroadcastsInDim S1x2 (![1] : Fin 1 → Fin S1x2.rank)
  bcast_S1x2_S131072x2_0_1 : S1x2.BroadcastsInDim S131072x2 (![0, 1] : Fin 2 → Fin S131072x2.rank)
  slices_S131072x2_S131072x1_0_0 : S131072x2.Slices ![0, 0] S131072x1
  slices_S131072x2_S131072x1_0_1 : S131072x2.Slices ![0, 1] S131072x1
  bcast_S131072x1_S131072x1x1_0_2 : S131072x1.BroadcastsInDim S131072x1x1 (![0, 2] : Fin 2 → Fin S131072x1x1.rank)
  bcast_S131072x1x1_S131072x3x1_0_1_2 : S131072x1x1.BroadcastsInDim S131072x3x1 (![0, 1, 2] : Fin 3 → Fin S131072x3x1.rank)
  shapeCasts_S131072x3x1_S131072x3 : S131072x3x1.ShapeCasts S131072x3
  bcast_S_S131072x1 : S_.BroadcastsInDim S131072x1 (![] : Fin 0 → Fin S131072x1.rank)
  bcast_S131072x1_S131072x3_0_1 : S131072x1.BroadcastsInDim S131072x3 (![0, 1] : Fin 2 → Fin S131072x3.rank)
  bcast_S_S2048x3 : S_.BroadcastsInDim S2048x3 (![] : Fin 0 → Fin S2048x3.rank)
  bcast_S131072_S131072x1_0 : S131072.BroadcastsInDim S131072x1 (![0] : Fin 1 → Fin S131072x1.rank)
  reducesTo_S2048x3_S2048_d1 : S2048x3.ReducesTo [1] S2048
  bcast_S2048_S2048x1_0 : S2048.BroadcastsInDim S2048x1 (![0] : Fin 1 → Fin S2048x1.rank)
  bcast_S_S2048x1 : S_.BroadcastsInDim S2048x1 (![] : Fin 0 → Fin S2048x1.rank)
  dot_S131072x3x256_S256x384_S131072x3x384_2_0_01_1_n_n_wf : DotDims.WF S131072x3x256 S256x384 S131072x3x384 [2] [0] [0, 1] [1] [] []
  dot_S131072x512_S512x512_S131072x512_1_0_0_1_n_n_wf : DotDims.WF S131072x512 S512x512 S131072x512 [1] [0] [0] [1] [] []
  dot_S131072x512_S512x256_S131072x256_1_0_0_1_n_n_wf : DotDims.WF S131072x512 S512x256 S131072x256 [1] [0] [0] [1] [] []
  dot_S131072x3x128_S128x129_S131072x3x129_2_0_01_1_n_n_wf : DotDims.WF S131072x3x128 S128x129 S131072x3x129 [2] [0] [0, 1] [1] [] []
  dot_S131072x256_S256x256_S131072x256_1_0_0_1_n_n_wf : DotDims.WF S131072x256 S256x256 S131072x256 [1] [0] [0] [1] [] []
  dot_S131072x256_S256x2_S131072x2_1_0_0_1_n_n_wf : DotDims.WF S131072x256 S256x2 S131072x2 [1] [0] [0] [1] [] []
  scatter_S2048x3_S131072x1_S131072x3_1_0_0_1_wf : ScatterDims.WF S2048x3 S131072x1 S131072x3 [1] [0] [0] 1

variable [Facts₀]

def dot_S131072x3x256_S256x384_S131072x3x384_2_0_01_1_n_n : DotDims S131072x3x256 S256x384 S131072x3x384 where
  lhsContracting := [2]
  rhsContracting := [0]
  lhsNonContracting := [0, 1]
  rhsNonContracting := [1]
  lhsBatch := []
  rhsBatch := []
  wf := dot_S131072x3x256_S256x384_S131072x3x384_2_0_01_1_n_n_wf
def dot_S131072x512_S512x512_S131072x512_1_0_0_1_n_n : DotDims S131072x512 S512x512 S131072x512 where
  lhsContracting := [1]
  rhsContracting := [0]
  lhsNonContracting := [0]
  rhsNonContracting := [1]
  lhsBatch := []
  rhsBatch := []
  wf := dot_S131072x512_S512x512_S131072x512_1_0_0_1_n_n_wf
def dot_S131072x512_S512x256_S131072x256_1_0_0_1_n_n : DotDims S131072x512 S512x256 S131072x256 where
  lhsContracting := [1]
  rhsContracting := [0]
  lhsNonContracting := [0]
  rhsNonContracting := [1]
  lhsBatch := []
  rhsBatch := []
  wf := dot_S131072x512_S512x256_S131072x256_1_0_0_1_n_n_wf
def dot_S131072x3x128_S128x129_S131072x3x129_2_0_01_1_n_n : DotDims S131072x3x128 S128x129 S131072x3x129 where
  lhsContracting := [2]
  rhsContracting := [0]
  lhsNonContracting := [0, 1]
  rhsNonContracting := [1]
  lhsBatch := []
  rhsBatch := []
  wf := dot_S131072x3x128_S128x129_S131072x3x129_2_0_01_1_n_n_wf
def dot_S131072x256_S256x256_S131072x256_1_0_0_1_n_n : DotDims S131072x256 S256x256 S131072x256 where
  lhsContracting := [1]
  rhsContracting := [0]
  lhsNonContracting := [0]
  rhsNonContracting := [1]
  lhsBatch := []
  rhsBatch := []
  wf := dot_S131072x256_S256x256_S131072x256_1_0_0_1_n_n_wf
def dot_S131072x256_S256x2_S131072x2_1_0_0_1_n_n : DotDims S131072x256 S256x2 S131072x2 where
  lhsContracting := [1]
  rhsContracting := [0]
  lhsNonContracting := [0]
  rhsNonContracting := [1]
  lhsBatch := []
  rhsBatch := []
  wf := dot_S131072x256_S256x2_S131072x2_1_0_0_1_n_n_wf
def scatter_S2048x3_S131072x1_S131072x3_1_0_0_1 : ScatterDims S2048x3 S131072x1 S131072x3 where
  updateWindowDims := [1]
  insertedWindowDims := [0]
  scatterDimsToOperandDims := [0]
  indexVectorDim := 1
  wf := scatter_S2048x3_S131072x1_S131072x3_1_0_0_1_wf

class Facts : Prop extends Facts₀ where

variable [Facts]
-- ==== Proof.Spec.lean ====
/-
  The node read-out of a two-stage gated equivariant block, one node at a time, on the extended reals.

  A node carries a scalar feature row `s` (256 entries), three vector-feature rows `v 0, v 1, v 2` (256 entries each, one
  per spatial direction) and a position `p` (3 entries). Every array the two programs compute at a node depends on
  that node's rows and on the weights alone, so the whole computation is a function of one node's rows:

  * `proj i o = ∑_f v i f · Wg0 f o` — direction `i` projected by the first gate's matrix; its first 256 columns are
    "V", its last 128 columns "W";
  * `x1` — the scalar row followed by the Euclidean norm over the three directions of the V columns;
  * `h1 = silu (x1 · W01 + b01)`, `x2 = h1 · W02 + b02`; the first 128 columns of `x2` are the new scalars, the last 128
    the gate;
  * `vout i k = gate k · W-column k of direction i`, `proj2 i o = ∑_k vout i k · Wg1 k o` (129 columns: 128 "V" and one "W");
  * `x3` — `silu` of the new scalars followed by the norm over the directions of `proj2`'s V columns;
  * `h2 = silu (x3 · W11 + b11)`, `x4 = h2 · W12 + b12` (two columns: a charge and a gate);
  * `nodeMu i = x4 1 · proj2 i 128 + (x4 0 · 1 + 0) · p i`.

  `silu x = x · logistic x`; the norm of three numbers is `sqrt (a·a + b·b + c·c)`. The literals one and zero of the
  last line stay as the single-precision words both programs print.
-/
import Idealize.ShloMosaic.PureOps.Ideal
import Idealize.ShloMosaic.PureOps.Ideal.Laws

noncomputable section

open scoped BigOperators

namespace Cert.NodeSpec

open Idealize.ShloMosaic

/-- The weights of the two gates, by coordinates. -/
structure Params where
  Wg0 : Fin 256 → Fin 384 → EReal
  W01 : Fin 512 → Fin 512 → EReal
  b01 : Fin 512 → EReal
  W02 : Fin 512 → Fin 256 → EReal
  b02 : Fin 256 → EReal
  Wg1 : Fin 128 → Fin 129 → EReal
  W11 : Fin 256 → Fin 256 → EReal
  b11 : Fin 256 → EReal
  W12 : Fin 256 → Fin 2 → EReal
  b12 : Fin 2 → EReal

/-- `x · logistic x`. -/
def silu (x : EReal) : EReal := x * Ideal.logistic x

/-- The Euclidean norm of three numbers. -/
def norm3 (a b c : EReal) : EReal := Ideal.sqrt (a * a + b * b + c * c)

/-- The literal one of the read-out's last line, as the word both programs print. -/
def one : EReal := Ideal.ofBits .f32 0x3F800000#32
/-- The literal zero of the read-out's last line, as the word both programs print. -/
def zero : EReal := Ideal.ofBits .f32 0x00000000#32

variable (P : Params) (s : Fin 256 → EReal) (v : Fin 3 → Fin 256 → EReal) (p : Fin 3 → EReal)

/-- Direction `i` of the node projected by the first gate's matrix. -/
def proj (i : Fin 3) (o : Fin 384) : EReal := ∑ f : Fin 256, v i f * P.Wg0 f o

/-- The first gate's input row: the scalars, then the norm over the directions of `proj`'s first 256 columns. -/
def x1 (j : Fin 512) : EReal :=
  if h : j.val < 256 then s ⟨j.val, h⟩
  else norm3 (proj P v 0 ⟨j.val - 256, by have := j.isLt; omega⟩) (proj P v 1 ⟨j.val - 256, by have := j.isLt; omega⟩)
    (proj P v 2 ⟨j.val - 256, by have := j.isLt; omega⟩)

/-- The first gate's hidden row. -/
def h1 (k : Fin 512) : EReal := silu (∑ j : Fin 512, x1 P s v j * P.W01 j k + P.b01 k)

/-- The first gate's output row: 128 new scalars, then 128 gate values. -/
def x2 (k : Fin 256) : EReal := ∑ j : Fin 512, h1 P s v j * P.W02 j k + P.b02 k

/-- The gated vector features: the gate times `proj`'s last 128 columns. -/
def vout (i : Fin 3) (k : Fin 128) : EReal :=
  x2 P s v ⟨128 + k.val, by have := k.isLt; omega⟩ * proj P v i ⟨256 + k.val, by have := k.isLt; omega⟩

/-- Direction `i` of the gated vector features projected by the second gate's matrix. -/
def proj2 (i : Fin 3) (o : Fin 129) : EReal := ∑ k : Fin 128, vout P s v i k * P.Wg1 k o

/-- The second gate's input row: `silu` of the new scalars, then the norm over the directions of `proj2`'s first 128 columns. -/
def x3 (j : Fin 256) : EReal :=
  if h : j.val < 128 then silu (x2 P s v ⟨j.val, by omega⟩)
  else norm3 (proj2 P s v 0 ⟨j.val - 128, by have := j.isLt; omega⟩) (proj2 P s v 1 ⟨j.val - 128, by have := j.isLt; omega⟩)
    (proj2 P s v 2 ⟨j.val - 128, by have := j.isLt; omega⟩)

/-- The second gate's hidden row. -/
def h2 (k : Fin 256) : EReal := silu (∑ j : Fin 256, x3 P s v j * P.W11 j k + P.b11 k)

/-- The second gate's output row: a charge and a gate. -/
def x4 (k : Fin 2) : EReal := ∑ j : Fin 256, h2 P s v j * P.W12 j k + P.b12 k

/-- The node's dipole contribution along direction `i`. -/
def nodeMu (i : Fin 3) : EReal :=
  x4 P s v 1 * proj2 P s v i ⟨128, by omega⟩ + (x4 P s v 0 * one + zero) * p i

/-- Three squares added to zero from the left, one after the other, are the three squares added. -/
theorem zero_add3 (a b c : EReal) : ((0 : EReal) + a + b) + c = a + b + c := by rw [zero_add]

end Cert.NodeSpec

end
-- ==== Proof.SpecArrays.lean ====
/-
  The node read-out's inputs taken out of arrays: the weights as arrays of literal shapes read by coordinates, and a
  node's row of a rank-2 array.
-/
import proofs.«142957_j86973087744435_2_alg».proof.Proof.Spec
import Idealize.ShloMosaic.Lib.ValueIdx
import Idealize.ShloMosaic.Lib.IdealHost
import Idealize.ShloMosaic.PureOps.Ideal.Laws

noncomputable section

namespace Cert.NodeSpec

open Idealize.ShloMosaic Idealize.ShloMosaic.ValueIdx

/-- The weights, each array read at the index its coordinates spell. -/
def Params.ofArrays (wg0 : (⟨2, ![256, 384]⟩ : Shape).Idx → EReal) (w01 : (⟨2, ![512, 512]⟩ : Shape).Idx → EReal)
    (b01 : (⟨1, ![512]⟩ : Shape).Idx → EReal) (w02 : (⟨2, ![512, 256]⟩ : Shape).Idx → EReal)
    (b02 : (⟨1, ![256]⟩ : Shape).Idx → EReal) (wg1 : (⟨2, ![128, 129]⟩ : Shape).Idx → EReal)
    (w11 : (⟨2, ![256, 256]⟩ : Shape).Idx → EReal) (b11 : (⟨1, ![256]⟩ : Shape).Idx → EReal)
    (w12 : (⟨2, ![256, 2]⟩ : Shape).Idx → EReal) (b12 : (⟨1, ![2]⟩ : Shape).Idx → EReal) : Params where
  Wg0 f o := wg0 (ix2 f o)
  W01 j k := w01 (ix2 j k)
  b01 k := b01 (ix1 k)
  W02 j k := w02 (ix2 j k)
  b02 k := b02 (ix1 k)
  Wg1 k o := wg1 (ix2 k o)
  W11 j k := w11 (ix2 j k)
  b11 k := b11 (ix1 k)
  W12 j k := w12 (ix2 j k)
  b12 k := b12 (ix1 k)

/-- Row `r` of a rank-2 array. -/
def row2 {R C : ℕ} (a : (⟨2, ![R, C]⟩ : Shape).Idx → EReal) (r : Fin R) : Fin C → EReal := fun j => a (ix2 r j)

/-- The read-out of every node, as one array of the argument arrays: at `(n, i)`, `nodeMu` of node `n`'s rows. -/
def nodeMuArr (a0 : (⟨2, ![131072, 3]⟩ : Shape).Idx → EReal) (a1 : (⟨2, ![131072, 256]⟩ : Shape).Idx → EReal)
    (a2 : (⟨3, ![131072, 3, 256]⟩ : Shape).Idx → EReal)
    (wg0 : (⟨2, ![256, 384]⟩ : Shape).Idx → EReal) (w01 : (⟨2, ![512, 512]⟩ : Shape).Idx → EReal)
    (b01 : (⟨1, ![512]⟩ : Shape).Idx → EReal) (w02 : (⟨2, ![512, 256]⟩ : Shape).Idx → EReal)
    (b02 : (⟨1, ![256]⟩ : Shape).Idx → EReal) (wg1 : (⟨2, ![128, 129]⟩ : Shape).Idx → EReal)
    (w11 : (⟨2, ![256, 256]⟩ : Shape).Idx → EReal) (b11 : (⟨1, ![256]⟩ : Shape).Idx → EReal)
    (w12 : (⟨2, ![256, 2]⟩ : Shape).Idx → EReal) (b12 : (⟨1, ![2]⟩ : Shape).Idx → EReal) :
    (⟨2, ![131072, 3]⟩ : Shape).Idx → EReal := fun i =>
  nodeMu (Params.ofArrays wg0 w01 b01 w02 b02 wg1 w11 b11 w12 b12) (row2 a1 (i 0)) (fun d f => a2 (ix3 (i 0) d f)) (row2 a0 (i 0)) (i 1)

/-! ## Pointwise array operations read at one index

Each says: if the operands read `a`, `b` at the index, the operation reads the corresponding number there. They let a
proof walk down a printed term one operation at a time, carrying only numbers. -/

variable {S : Shape} {φ : FTy}

theorem addf_eq (A B : FVec Ideal S φ) (i : S.Idx) (a b : EReal) (ha : A i = a) (hb : B i = b) : addf A B i = a + b := by
  subst ha hb; rfl

theorem mulf_eq (A B : FVec Ideal S φ) (i : S.Idx) (a b : EReal) (ha : A i = a) (hb : B i = b) : mulf A B i = a * b := by
  subst ha hb; rfl

/-- A change of float format is the identity on the extended reals. -/
theorem truncf_eq {ψ : FTy} (A : FVec Ideal S φ) (h : ψ.bits < φ.bits) (i : S.Idx) (a : EReal) (ha : A i = a) :
    (truncf ψ A h : FVec Ideal S ψ) i = a := ha

/-- `x · logistic x`, with the vector unit's logistic. -/
theorem silu_eq (A : FVec Ideal S φ) (i : S.Idx) (a : EReal) (ha : A i = a) : mulf A (logistic A) i = silu a := by
  subst ha; rfl

/-- `x · (1 / (1 + e^(-x)))` in the host's operations, the two ones being the single-precision word of one, is the same
    `x · logistic x`. -/
theorem hostSilu_eq (x : EReal) :
    x * Ideal.div (Ideal.ofBits .f32 0x3F800000#32) (Ideal.ofBits .f32 0x3F800000#32 + Ideal.exp (-x)) = silu x := by
  rw [Ideal.ofBits_one_f32]; rfl

/-- Three squares accumulated onto a zero splat, then the square root: the Euclidean norm of the three entries. -/
theorem norm_cols (A B C : FVec Ideal S φ) (z : EReal) (hz : z = 0) (i : S.Idx) (a b c : EReal) (ha : A i = a) (hb : B i = b) (hc : C i = c) :
    sqrt (addf (addf (addf (broadcast S z) (mulf A A)) (mulf B B)) (mulf C C)) i = norm3 a b c := by
  subst ha hb hc hz
  show Ideal.sqrt ((((0 : EReal) + A i * A i) + B i * B i) + C i * C i) = Ideal.sqrt (A i * A i + B i * B i + C i * C i)
  rw [zero_add]

end Cert.NodeSpec

end
-- ==== Proof.LibDot.lean ====
/-
  A product of an `[m, k]` array by a `[k, n]` array over ONE contracted axis, read at an output index `(p, e)` on the
  extended reals as the plain sum `∑ⱼ A[p, j] · B[j, e]` over `j : Fin k` — for the vector unit's matrix product into a zero
  accumulator and for the host's `dot_general` alike, whatever the two operands' float formats.  The dimension numbers
  enter only through four facts: where they send an output index and a contraction index in each operand.
-/
import Idealize.ShloMosaic.PureOps.Ideal
import Idealize.ShloMosaic.PureOps.Ideal.Laws
import Idealize.ShloMosaic.Lib.ValueIdx

noncomputable section

open scoped BigOperators

namespace Cert.LibDot

open Idealize.ShloMosaic Idealize.ShloMosaic.ValueIdx

/-- The sum over the contraction index, re-indexed by the contracted axis's one coordinate. -/
theorem contract_sum {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (A : FVec Ideal ⟨2, ![m, k]⟩ φ₁) (B : FVec Ideal ⟨2, ![k, n]⟩ φ₂) (p : Fin m) (e : Fin n) :
    ∑ q : D.contr.Idx, A (D.lhsIdx (ix2 p e) q) * B (D.rhsIdx (ix2 p e) q) = ∑ j : Fin k, A (ix2 p j) * B (ix2 j e) := by
  rw [← Equiv.sum_comp (contrEquiv1 D k hr hs).symm]
  refine Finset.sum_congr rfl fun j _ => ?_
  have hk := contrEquiv1_symm_val D k hr hs j
  have el : D.lhsIdx (ix2 p e) ((contrEquiv1 D k hr hs).symm j) = ix2 p j := funext fun a => Fin.ext (by
    match a with
    | ⟨0, _⟩ => exact hl0 _ _
    | ⟨1, _⟩ => exact (hl1 _ _).trans hk)
  have er : D.rhsIdx (ix2 p e) ((contrEquiv1 D k hr hs).symm j) = ix2 j e := funext fun a => Fin.ext (by
    match a with
    | ⟨0, _⟩ => exact (hr0 _ _).trans hk
    | ⟨1, _⟩ => exact hr1 _ _)
  rw [el, er]

/-- The vector unit's matrix product into the zero accumulator, at `(p, e)`. -/
theorem matmul_zero_apply {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (A : FVec Ideal ⟨2, ![m, k]⟩ φ₁) (B : FVec Ideal ⟨2, ![k, n]⟩ φ₂)
    (p : Fin m) (e : Fin n) :
    FloatOps.matmul D prec A B (constant ⟨2, ![m, n]⟩ .f32 0x00000000#32) (ix2 p e) = ∑ j : Fin k, A (ix2 p j) * B (ix2 j e) :=
  (Ideal.matmul_constant_zero_apply D prec A B (ix2 p e)).trans (contract_sum D hr hs hl0 hl1 hr0 hr1 A B p e)

/-- The host's `dot_general`, at `(p, e)`. -/
theorem dotGeneral_apply {m k n : ℕ} {φ₁ φ₂ : FTy} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (sched : HostSchedule) (A : FVec Ideal ⟨2, ![m, k]⟩ φ₁) (B : FVec Ideal ⟨2, ![k, n]⟩ φ₂)
    (p : Fin m) (e : Fin n) :
    FloatOps.dotGeneral D prec sched A B (ix2 p e) = ∑ j : Fin k, A (ix2 p j) * B (ix2 j e) :=
  (Ideal.dotGeneral_apply D prec sched A B (ix2 p e)).trans (contract_sum D hr hs hl0 hl1 hr0 hr1 A B p e)

end Cert.LibDot

end
-- ==== Proof.KernelDots.lean ====
/-
  The kernel body's six matrix products (rows of a 1024-row block by a weight matrix, accumulated into zero), each read at
  `(p, e)` on the extended reals as the plain sum over the contracted coordinate.
-/
import proofs.«142957_j86973087744435_2_alg».proof.Proof.Gen.KernelIdeal
import proofs.«142957_j86973087744435_2_alg».proof.Proof.LibDot

noncomputable section

open scoped BigOperators

namespace Cert.KernelIdeal.Dots

open Cert.KernelIdeal Idealize.ShloMosaic Idealize.ShloMosaic.ValueIdx

theorem mm384_l0 (i : S1024x384.Idx) (q : dot_S1024x256_S256x384_S1024x384_1_0_0_1_n_n.contr.Idx) : (dot_S1024x256_S256x384_S1024x384_1_0_0_1_n_n.lhsIdx i q 0).val = (i 0).val := by
  unfold DotDims.lhsIdx
  rw [dif_neg (show ¬(0 : Fin S1024x256.rank) ∈ dot_S1024x256_S256x384_S1024x384_1_0_0_1_n_n.lhsBatch by decide), dif_pos (show (0 : Fin S1024x256.rank) ∈ dot_S1024x256_S256x384_S1024x384_1_0_0_1_n_n.lhsNonContracting by decide)]
  rfl
theorem mm384_l1 (i : S1024x384.Idx) (q : dot_S1024x256_S256x384_S1024x384_1_0_0_1_n_n.contr.Idx) : (dot_S1024x256_S256x384_S1024x384_1_0_0_1_n_n.lhsIdx i q 1).val = (q ⟨0, by decide⟩).val :=
  dot_S1024x256_S256x384_S1024x384_1_0_0_1_n_n.lhsIdx_val_of_single rfl i q
theorem mm384_r0 (i : S1024x384.Idx) (q : dot_S1024x256_S256x384_S1024x384_1_0_0_1_n_n.contr.Idx) : (dot_S1024x256_S256x384_S1024x384_1_0_0_1_n_n.rhsIdx i q 0).val = (q ⟨0, by decide⟩).val :=
  dot_S1024x256_S256x384_S1024x384_1_0_0_1_n_n.rhsIdx_val_of_single rfl i q
theorem mm384_r1 (i : S1024x384.Idx) (q : dot_S1024x256_S256x384_S1024x384_1_0_0_1_n_n.contr.Idx) : (dot_S1024x256_S256x384_S1024x384_1_0_0_1_n_n.rhsIdx i q 1).val = (i 1).val := by
  unfold DotDims.rhsIdx
  rw [dif_neg (show ¬(1 : Fin S256x384.rank) ∈ dot_S1024x256_S256x384_S1024x384_1_0_0_1_n_n.rhsBatch by decide), dif_pos (show (1 : Fin S256x384.rank) ∈ dot_S1024x256_S256x384_S1024x384_1_0_0_1_n_n.rhsNonContracting by decide)]
  rfl
/-- The [1024, 256] by [256, 384] product into the zero accumulator at `(p, e)`: the sum over the 256 contracted coordinates. -/
theorem mm384 {φ₁ φ₂ : FTy} (A : FVec Ideal S1024x256 φ₁) (B : FVec Ideal S256x384 φ₂) (p : Fin 1024) (e : Fin 384) :
    FloatOps.matmul dot_S1024x256_S256x384_S1024x384_1_0_0_1_n_n none A B (constant S1024x384 .f32 0x00000000#32) (ix2 p e) = ∑ j : Fin 256, A (ix2 p j) * B (ix2 j e) :=
  Cert.LibDot.matmul_zero_apply dot_S1024x256_S256x384_S1024x384_1_0_0_1_n_n rfl rfl mm384_l0 mm384_l1 mm384_r0 mm384_r1 none A B p e

theorem mm512_l0 (i : S1024x512.Idx) (q : dot_S1024x512_S512x512_S1024x512_1_0_0_1_n_n.contr.Idx) : (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem mm512_l1 (i : S1024x512.Idx) (q : dot_S1024x512_S512x512_S1024x512_1_0_0_1_n_n.contr.Idx) : (dot_S1024x512_S512x512_S1024x512_1_0_0_1_n_n.lhsIdx i q 1).val = (q ⟨0, by decide⟩).val :=
  dot_S1024x512_S512x512_S1024x512_1_0_0_1_n_n.lhsIdx_val_of_single rfl i q
theorem mm512_r0 (i : S1024x512.Idx) (q : dot_S1024x512_S512x512_S1024x512_1_0_0_1_n_n.contr.Idx) : (dot_S1024x512_S512x512_S1024x512_1_0_0_1_n_n.rhsIdx i q 0).val = (q ⟨0, by decide⟩).val :=
  dot_S1024x512_S512x512_S1024x512_1_0_0_1_n_n.rhsIdx_val_of_single rfl i q
theorem mm512_r1 (i : S1024x512.Idx) (q : dot_S1024x512_S512x512_S1024x512_1_0_0_1_n_n.contr.Idx) : (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl
/-- The [1024, 512] by [512, 512] product into the zero accumulator at `(p, e)`: the sum over the 512 contracted coordinates. -/
theorem mm512 {φ₁ φ₂ : FTy} (A : FVec Ideal S1024x512 φ₁) (B : FVec Ideal S512x512 φ₂) (p : Fin 1024) (e : Fin 512) :
    FloatOps.matmul dot_S1024x512_S512x512_S1024x512_1_0_0_1_n_n none A B (constant S1024x512 .f32 0x00000000#32) (ix2 p e) = ∑ j : Fin 512, A (ix2 p j) * B (ix2 j e) :=
  Cert.LibDot.matmul_zero_apply dot_S1024x512_S512x512_S1024x512_1_0_0_1_n_n rfl rfl mm512_l0 mm512_l1 mm512_r0 mm512_r1 none A B p e

theorem mm512x256_l0 (i : S1024x256.Idx) (q : dot_S1024x512_S512x256_S1024x256_1_0_0_1_n_n.contr.Idx) : (dot_S1024x512_S512x256_S1024x256_1_0_0_1_n_n.lhsIdx i q 0).val = (i 0).val := by
  unfold DotDims.lhsIdx
  rw [dif_neg (show ¬(0 : Fin S1024x512.rank) ∈ dot_S1024x512_S512x256_S1024x256_1_0_0_1_n_n.lhsBatch by decide), dif_pos (show (0 : Fin S1024x512.rank) ∈ dot_S1024x512_S512x256_S1024x256_1_0_0_1_n_n.lhsNonContracting by decide)]
  rfl
theorem mm512x256_l1 (i : S1024x256.Idx) (q : dot_S1024x512_S512x256_S1024x256_1_0_0_1_n_n.contr.Idx) : (dot_S1024x512_S512x256_S1024x256_1_0_0_1_n_n.lhsIdx i q 1).val = (q ⟨0, by decide⟩).val :=
  dot_S1024x512_S512x256_S1024x256_1_0_0_1_n_n.lhsIdx_val_of_single rfl i q
theorem mm512x256_r0 (i : S1024x256.Idx) (q : dot_S1024x512_S512x256_S1024x256_1_0_0_1_n_n.contr.Idx) : (dot_S1024x512_S512x256_S1024x256_1_0_0_1_n_n.rhsIdx i q 0).val = (q ⟨0, by decide⟩).val :=
  dot_S1024x512_S512x256_S1024x256_1_0_0_1_n_n.rhsIdx_val_of_single rfl i q
theorem mm512x256_r1 (i : S1024x256.Idx) (q : dot_S1024x512_S512x256_S1024x256_1_0_0_1_n_n.contr.Idx) : (dot_S1024x512_S512x256_S1024x256_1_0_0_1_n_n.rhsIdx i q 1).val = (i 1).val := by
  unfold DotDims.rhsIdx
  rw [dif_neg (show ¬(1 : Fin S512x256.rank) ∈ dot_S1024x512_S512x256_S1024x256_1_0_0_1_n_n.rhsBatch by decide), dif_pos (show (1 : Fin S512x256.rank) ∈ dot_S1024x512_S512x256_S1024x256_1_0_0_1_n_n.rhsNonContracting by decide)]
  rfl
/-- The [1024, 512] by [512, 256] product into the zero accumulator at `(p, e)`: the sum over the 512 contracted coordinates. -/
theorem mm512x256 {φ₁ φ₂ : FTy} (A : FVec Ideal S1024x512 φ₁) (B : FVec Ideal S512x256 φ₂) (p : Fin 1024) (e : Fin 256) :
    FloatOps.matmul dot_S1024x512_S512x256_S1024x256_1_0_0_1_n_n none A B (constant S1024x256 .f32 0x00000000#32) (ix2 p e) = ∑ j : Fin 512, A (ix2 p j) * B (ix2 j e) :=
  Cert.LibDot.matmul_zero_apply dot_S1024x512_S512x256_S1024x256_1_0_0_1_n_n rfl rfl mm512x256_l0 mm512x256_l1 mm512x256_r0 mm512x256_r1 none A B p e

theorem mm129_l0 (i : S1024x129.Idx) (q : dot_S1024x128_S128x129_S1024x129_1_0_0_1_n_n.contr.Idx) : (dot_S1024x128_S128x129_S1024x129_1_0_0_1_n_n.lhsIdx i q 0).val = (i 0).val := by
  unfold DotDims.lhsIdx
  rw [dif_neg (show ¬(0 : Fin S1024x128.rank) ∈ dot_S1024x128_S128x129_S1024x129_1_0_0_1_n_n.lhsBatch by decide), dif_pos (show (0 : Fin S1024x128.rank) ∈ dot_S1024x128_S128x129_S1024x129_1_0_0_1_n_n.lhsNonContracting by decide)]
  rfl
theorem mm129_l1 (i : S1024x129.Idx) (q : dot_S1024x128_S128x129_S1024x129_1_0_0_1_n_n.contr.Idx) : (dot_S1024x128_S128x129_S1024x129_1_0_0_1_n_n.lhsIdx i q 1).val = (q ⟨0, by decide⟩).val :=
  dot_S1024x128_S128x129_S1024x129_1_0_0_1_n_n.lhsIdx_val_of_single rfl i q
theorem mm129_r0 (i : S1024x129.Idx) (q : dot_S1024x128_S128x129_S1024x129_1_0_0_1_n_n.contr.Idx) : (dot_S1024x128_S128x129_S1024x129_1_0_0_1_n_n.rhsIdx i q 0).val = (q ⟨0, by decide⟩).val :=
  dot_S1024x128_S128x129_S1024x129_1_0_0_1_n_n.rhsIdx_val_of_single rfl i q
theorem mm129_r1 (i : S1024x129.Idx) (q : dot_S1024x128_S128x129_S1024x129_1_0_0_1_n_n.contr.Idx) : (dot_S1024x128_S128x129_S1024x129_1_0_0_1_n_n.rhsIdx i q 1).val = (i 1).val := by
  unfold DotDims.rhsIdx
  rw [dif_neg (show ¬(1 : Fin S128x129.rank) ∈ dot_S1024x128_S128x129_S1024x129_1_0_0_1_n_n.rhsBatch by decide), dif_pos (show (1 : Fin S128x129.rank) ∈ dot_S1024x128_S128x129_S1024x129_1_0_0_1_n_n.rhsNonContracting by decide)]
  rfl
/-- The [1024, 128] by [128, 129] product into the zero accumulator at `(p, e)`: the sum over the 128 contracted coordinates. -/
theorem mm129 {φ₁ φ₂ : FTy} (A : FVec Ideal S1024x128 φ₁) (B : FVec Ideal S128x129 φ₂) (p : Fin 1024) (e : Fin 129) :
    FloatOps.matmul dot_S1024x128_S128x129_S1024x129_1_0_0_1_n_n none A B (constant S1024x129 .f32 0x00000000#32) (ix2 p e) = ∑ j : Fin 128, A (ix2 p j) * B (ix2 j e) :=
  Cert.LibDot.matmul_zero_apply dot_S1024x128_S128x129_S1024x129_1_0_0_1_n_n rfl rfl mm129_l0 mm129_l1 mm129_r0 mm129_r1 none A B p e

theorem mm256_l0 (i : S1024x256.Idx) (q : dot_S1024x256_S256x256_S1024x256_1_0_0_1_n_n.contr.Idx) : (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem mm256_l1 (i : S1024x256.Idx) (q : dot_S1024x256_S256x256_S1024x256_1_0_0_1_n_n.contr.Idx) : (dot_S1024x256_S256x256_S1024x256_1_0_0_1_n_n.lhsIdx i q 1).val = (q ⟨0, by decide⟩).val :=
  dot_S1024x256_S256x256_S1024x256_1_0_0_1_n_n.lhsIdx_val_of_single rfl i q
theorem mm256_r0 (i : S1024x256.Idx) (q : dot_S1024x256_S256x256_S1024x256_1_0_0_1_n_n.contr.Idx) : (dot_S1024x256_S256x256_S1024x256_1_0_0_1_n_n.rhsIdx i q 0).val = (q ⟨0, by decide⟩).val :=
  dot_S1024x256_S256x256_S1024x256_1_0_0_1_n_n.rhsIdx_val_of_single rfl i q
theorem mm256_r1 (i : S1024x256.Idx) (q : dot_S1024x256_S256x256_S1024x256_1_0_0_1_n_n.contr.Idx) : (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl
/-- The [1024, 256] by [256, 256] product into the zero accumulator at `(p, e)`: the sum over the 256 contracted coordinates. -/
theorem mm256 {φ₁ φ₂ : FTy} (A : FVec Ideal S1024x256 φ₁) (B : FVec Ideal S256x256 φ₂) (p : Fin 1024) (e : Fin 256) :
    FloatOps.matmul dot_S1024x256_S256x256_S1024x256_1_0_0_1_n_n none A B (constant S1024x256 .f32 0x00000000#32) (ix2 p e) = ∑ j : Fin 256, A (ix2 p j) * B (ix2 j e) :=
  Cert.LibDot.matmul_zero_apply dot_S1024x256_S256x256_S1024x256_1_0_0_1_n_n rfl rfl mm256_l0 mm256_l1 mm256_r0 mm256_r1 none A B p e

theorem mm2_l0 (i : S1024x2.Idx) (q : dot_S1024x256_S256x2_S1024x2_1_0_0_1_n_n.contr.Idx) : (dot_S1024x256_S256x2_S1024x2_1_0_0_1_n_n.lhsIdx i q 0).val = (i 0).val := by
  unfold DotDims.lhsIdx
  rw [dif_neg (show ¬(0 : Fin S1024x256.rank) ∈ dot_S1024x256_S256x2_S1024x2_1_0_0_1_n_n.lhsBatch by decide), dif_pos (show (0 : Fin S1024x256.rank) ∈ dot_S1024x256_S256x2_S1024x2_1_0_0_1_n_n.lhsNonContracting by decide)]
  rfl
theorem mm2_l1 (i : S1024x2.Idx) (q : dot_S1024x256_S256x2_S1024x2_1_0_0_1_n_n.contr.Idx) : (dot_S1024x256_S256x2_S1024x2_1_0_0_1_n_n.lhsIdx i q 1).val = (q ⟨0, by decide⟩).val :=
  dot_S1024x256_S256x2_S1024x2_1_0_0_1_n_n.lhsIdx_val_of_single rfl i q
theorem mm2_r0 (i : S1024x2.Idx) (q : dot_S1024x256_S256x2_S1024x2_1_0_0_1_n_n.contr.Idx) : (dot_S1024x256_S256x2_S1024x2_1_0_0_1_n_n.rhsIdx i q 0).val = (q ⟨0, by decide⟩).val :=
  dot_S1024x256_S256x2_S1024x2_1_0_0_1_n_n.rhsIdx_val_of_single rfl i q
theorem mm2_r1 (i : S1024x2.Idx) (q : dot_S1024x256_S256x2_S1024x2_1_0_0_1_n_n.contr.Idx) : (dot_S1024x256_S256x2_S1024x2_1_0_0_1_n_n.rhsIdx i q 1).val = (i 1).val := by
  unfold DotDims.rhsIdx
  rw [dif_neg (show ¬(1 : Fin S256x2.rank) ∈ dot_S1024x256_S256x2_S1024x2_1_0_0_1_n_n.rhsBatch by decide), dif_pos (show (1 : Fin S256x2.rank) ∈ dot_S1024x256_S256x2_S1024x2_1_0_0_1_n_n.rhsNonContracting by decide)]
  rfl
/-- The [1024, 256] by [256, 2] product into the zero accumulator at `(p, e)`: the sum over the 256 contracted coordinates. -/
theorem mm2 {φ₁ φ₂ : FTy} (A : FVec Ideal S1024x256 φ₁) (B : FVec Ideal S256x2 φ₂) (p : Fin 1024) (e : Fin 2) :
    FloatOps.matmul dot_S1024x256_S256x2_S1024x2_1_0_0_1_n_n none A B (constant S1024x2 .f32 0x00000000#32) (ix2 p e) = ∑ j : Fin 256, A (ix2 p j) * B (ix2 j e) :=
  Cert.LibDot.matmul_zero_apply dot_S1024x256_S256x2_S1024x2_1_0_0_1_n_n rfl rfl mm2_l0 mm2_l1 mm2_r0 mm2_r1 none A B p e

end Cert.KernelIdeal.Dots

end
-- ==== Proof.LibRowwise.lean ====
/-
  Layout operations of row-wise kernels read at an index written by coordinates, over abstract extents, and a
  matrix product into a zero accumulator read as a plain sum.

  * a vector of `a` entries cast to a column `[a, 1]` reads, at `(i, u)`, the vector at `i`;
  * a column `[a, 1]` broadcast to `[a, b]` reads, at `(p, c)`, the column at `(p, 0)`: every entry of a row is the row's one value;
  * two arrays `[R, a]` and `[R, b]` joined along the second axis read, at `(r, j)`, the first at `(r, j)` when `j < a`
    and the second at `(r, j - a)` otherwise;
  * a product of an `[m, k]` by a `[k, n]` array contracting the first's columns with the second's rows, accumulated into
    zero, is `∑ⱼ A[p, j] · B[j, e]` at `(p, e)` on the extended reals.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibRowwise

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, row `p`'s one entry. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Two arrays joined along the second axis, read at `(r, j)`: the first below its width `a`, the second from `a` on. -/
theorem concatenate_cols_apply {R a b c : ℕ} (hc : c = a + b) (x : (⟨2, ![R, a]⟩ : Shape).Idx → α) (y : (⟨2, ![R, b]⟩ : Shape).Idx → α)
    (h : Shape.Concatenates [(⟨2, ![R, a]⟩ : Shape), ⟨2, ![R, b]⟩] ⟨2, ![R, c]⟩ (1 : Fin 2)) (r : Fin R) (j : Fin c) :
    concatenate ⟨2, ![R, c]⟩ (1 : Fin 2) [⟨⟨2, ![R, a]⟩, x⟩, ⟨⟨2, ![R, b]⟩, y⟩] h (ix2 r j)
      = if hj : j.val < a then x (ix2 r ⟨j.val, hj⟩) else y (ix2 r ⟨j.val - a, by have := j.isLt; omega⟩) := by
  by_cases hj : j.val < a
  · rw [dif_pos hj]
    exact concatenate_pair_apply_left (1 : Fin 2) x y h (ix2 r j) rfl (ix2 r ⟨j.val, hj⟩) (fun d => by
      match d with
      | ⟨0, _⟩ => rfl
      | ⟨1, _⟩ => rfl)
  · rw [dif_neg hj]
    exact concatenate_pair_apply_right (1 : Fin 2) x y h (ix2 r j) rfl rfl
      (ix2 r ⟨j.val - a, by have := j.isLt; omega⟩) (fun d hd => by
        match d with
        | ⟨0, _⟩ => rfl
        | ⟨1, _⟩ => exact absurd rfl hd) (by show (j.val - a) + a = j.val; omega)

/-- A matrix product of rows by columns into the zero accumulator, at `(p, e)`: the sum over the one contracted
    coordinate of `A[p, j] · B[j, e]`.  The four hypotheses say where the product's dimension numbers send an output
    index and a contraction index in each operand (rows of the first with its columns contracted against the rows of
    the second). -/
theorem matmul_zero_apply {m k n : ℕ} (D : DotDims ⟨2, ![m, k]⟩ ⟨2, ![k, n]⟩ ⟨2, ![m, n]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision) (A : FVec Ideal ⟨2, ![m, k]⟩ .f32) (B : FVec Ideal ⟨2, ![k, n]⟩ .f32)
    (p : Fin m) (e : Fin n) :
    FloatOps.matmul D prec A B (constant ⟨2, ![m, n]⟩ .f32 0x00000000#32) (ix2 p e) = ∑ j : Fin k, A (ix2 p j) * B (ix2 j e) := by
  rw [Ideal.matmul_constant_zero_apply, ← Equiv.sum_comp (contrEquiv1 D k hr hs).symm]
  refine Finset.sum_congr rfl fun j _ => ?_
  have hk := contrEquiv1_symm_val D k hr hs j
  have el : D.lhsIdx (ix2 p e) ((contrEquiv1 D k hr hs).symm j) = ix2 p j := funext fun a => Fin.ext (by
    match a with
    | ⟨0, _⟩ => exact hl0 _ _
    | ⟨1, _⟩ => exact (hl1 _ _).trans hk)
  have er : D.rhsIdx (ix2 p e) ((contrEquiv1 D k hr hs).symm j) = ix2 j e := funext fun a => Fin.ext (by
    match a with
    | ⟨0, _⟩ => exact (hr0 _ _).trans hk
    | ⟨1, _⟩ => exact hr1 _ _)
  rw [el, er]

end Cert.LibRowwise

end
-- ==== Proof.LibCols.lean ====
/-
  Column operations on rank-2 arrays read at an index written by its coordinates, over abstract extents.

  * a slice of columns `[off, off + C')` of an `[R, C]` array reads, at `(r, k)`, the array at `(r, off + k)`;
  * three one-column arrays `[R, 1]` joined along the second axis read, at `(r, i)`, the `i`-th of them at `(r, 0)`;
  * a bias vector of `c` entries cast to one row and repeated down `a` rows reads, at `(p, j)`, the vector at `j`.
-/
import Idealize.ShloMosaic.PureOps.Ideal
import Idealize.ShloMosaic.Lib.ValueIdx
import Idealize.ShloMosaic.Lib.Pipeline.Value

noncomputable section

namespace Cert.LibCols

open Idealize.ShloMosaic Idealize.ShloMosaic.ValueIdx

variable {α : Type}

/-- A slice of the columns from `off` on, all rows kept, at `(r, k)`: the operand at `(r, off + k)`. -/
theorem slice_cols_apply {R C C' : ℕ} (off : ℕ) (x : (⟨2, ![R, C]⟩ : Shape).Idx → α)
    (h : (⟨2, ![R, C]⟩ : Shape).Slices ![0, off] ⟨2, ![R, C']⟩) (r : Fin R) (k : Fin C') (hlt : off + k.val < C) :
    extractStridedSlice ⟨2, ![R, C']⟩ ![0, off] x h (ix2 r k) = x (ix2 r ⟨off + k.val, hlt⟩) :=
  extractStridedSlice_apply ![0, off] x h (ix2 r k) (ix2 r ⟨off + k.val, hlt⟩) (fun a => by
    match a with
    | ⟨0, _⟩ => exact (Nat.zero_add _).symm
    | ⟨1, _⟩ => rfl)

/-- A slice of the first `C'` columns, all rows kept, at `(r, k)`: the operand at `(r, k)`. -/
theorem slice_cols_zero_apply {R C C' : ℕ} (x : (⟨2, ![R, C]⟩ : Shape).Idx → α)
    (h : (⟨2, ![R, C]⟩ : Shape).Slices ![0, 0] ⟨2, ![R, C']⟩) (r : Fin R) (k : Fin C') (hlt : k.val < C) :
    extractStridedSlice ⟨2, ![R, C']⟩ ![0, 0] x h (ix2 r k) = x (ix2 r ⟨k.val, hlt⟩) :=
  extractStridedSlice_apply ![0, 0] x h (ix2 r k) (ix2 r ⟨k.val, hlt⟩) (fun a => by
    match a with
    | ⟨0, _⟩ => exact (Nat.zero_add _).symm
    | ⟨1, _⟩ => exact (Nat.zero_add _).symm)

/-- Three one-column arrays joined along the second axis, at `(r, i)`: the `i`-th array's entry of row `r`. -/
theorem concat3_unit_cols_apply {R : ℕ} (a b c : (⟨2, ![R, 1]⟩ : Shape).Idx → α)
    (h : Shape.Concatenates [(⟨2, ![R, 1]⟩ : Shape), ⟨2, ![R, 1]⟩, ⟨2, ![R, 1]⟩] ⟨2, ![R, 3]⟩ (1 : Fin 2)) (r : Fin R) (i : Fin 3) :
    concatenate ⟨2, ![R, 3]⟩ (1 : Fin 2) [⟨⟨2, ![R, 1]⟩, a⟩, ⟨⟨2, ![R, 1]⟩, b⟩, ⟨⟨2, ![R, 1]⟩, c⟩] h (ix2 r i)
      = (![a, b, c] : Fin 3 → (⟨2, ![R, 1]⟩ : Shape).Idx → α) i (ix2 r (0 : Fin 1)) := by
  have side : ∀ d : Fin 2, d ≠ (1 : Fin 2) → ((ix2 r (0 : Fin 1) : (⟨2, ![R, 1]⟩ : Shape).Idx) d).val = ((ix2 r i : (⟨2, ![R, 3]⟩ : Shape).Idx) d).val := fun d hd => by
    match d with
    | ⟨0, _⟩ => rfl
    | ⟨1, _⟩ => exact absurd rfl hd
  have h' : Shape.Concatenates (([⟨⟨2, ![R, 1]⟩, a⟩, ⟨⟨2, ![R, 1]⟩, b⟩, ⟨⟨2, ![R, 1]⟩, c⟩] : List ((s : Shape) × (s.Idx → α))).map (·.1)) (⟨2, ![R, 3]⟩ : Shape) (1 : Fin 2) := h
  match i with
  | ⟨0, _⟩ =>
    exact concatenate_apply_piece (t := ⟨2, ![R, 3]⟩) (1 : Fin 2) ([⟨⟨2, ![R, 1]⟩, a⟩, ⟨⟨2, ![R, 1]⟩, b⟩, ⟨⟨2, ![R, 1]⟩, c⟩] : List ((s : Shape) × (s.Idx → α))) h' (ix2 r _) 0 (by show 0 < 3; omega) ⟨2, ![R, 1]⟩ a rfl rfl 0 rfl (ix2 r (0 : Fin 1)) side rfl
  | ⟨1, _⟩ =>
    exact concatenate_apply_piece (t := ⟨2, ![R, 3]⟩) (1 : Fin 2) ([⟨⟨2, ![R, 1]⟩, a⟩, ⟨⟨2, ![R, 1]⟩, b⟩, ⟨⟨2, ![R, 1]⟩, c⟩] : List ((s : Shape) × (s.Idx → α))) h' (ix2 r _) 1 (by show 1 < 3; omega) ⟨2, ![R, 1]⟩ b rfl rfl 1 rfl (ix2 r (0 : Fin 1)) side rfl
  | ⟨2, _⟩ =>
    exact concatenate_apply_piece (t := ⟨2, ![R, 3]⟩) (1 : Fin 2) ([⟨⟨2, ![R, 1]⟩, a⟩, ⟨⟨2, ![R, 1]⟩, b⟩, ⟨⟨2, ![R, 1]⟩, c⟩] : List ((s : Shape) × (s.Idx → α))) h' (ix2 r _) 2 (by show 2 < 3; omega) ⟨2, ![R, 1]⟩ c rfl rfl 2 rfl (ix2 r (0 : Fin 1)) side rfl

/-- A vector of `c` entries cast to the one row `[1, c]` and repeated down `a` rows, at `(p, j)`: the vector at `j`. -/
theorem bias_rows_apply {a c : ℕ} (x : (⟨1, ![c]⟩ : Shape).Idx → α) (h : (⟨1, ![c]⟩ : Shape).ShapeCasts ⟨2, ![1, c]⟩)
    (h' : (⟨2, ![1, c]⟩ : Shape).Broadcasts ⟨2, ![a, c]⟩) (p : Fin a) (j : Fin c) :
    broadcastTo ⟨2, ![a, c]⟩ (shapeCast ⟨2, ![1, c]⟩ x h) h' (ix2 p j) = x (ix1 j) :=
  (broadcastTo_apply _ h' (ix2 p j) (ix2 (0 : Fin 1) j) (fun d => match d with
    | ⟨0, _⟩ => by show (0 : ℕ) = if (1 : ℕ) = 1 then 0 else p.val; rw [if_pos rfl]
    | ⟨1, _⟩ => by show j.val = if c = 1 then 0 else j.val; have := j.isLt; split <;> omega)).trans
  (shapeCast_apply x h _ _ (by
    rw [Shape.rowMajor_val_two, Shape.rowMajor_val_one]
    show j.val = (0 : ℕ) * c + j.val
    rw [Nat.zero_mul, Nat.zero_add]))

/-- A column `[a, 1]` repeated across `b` columns, at `(p, k)`: row `p`'s one entry. -/
theorem col_bcast_apply {a b : ℕ} (v : (⟨2, ![a, 1]⟩ : Shape).Idx → α) (h : (⟨2, ![a, 1]⟩ : Shape).Broadcasts ⟨2, ![a, b]⟩)
    (p : Fin a) (k : Fin b) : broadcastTo ⟨2, ![a, b]⟩ v h (ix2 p k) = v (ix2 p (0 : Fin 1)) := by
  refine broadcastTo_apply v h (ix2 p k) (ix2 p (0 : Fin 1)) fun ax => ?_
  match ax with
  | ⟨0, _⟩ =>
    show p.val = if a = 1 then 0 else p.val
    split
    · have := p.isLt; omega
    · rfl
  | ⟨1, _⟩ => rfl

end Cert.LibCols

end
-- ==== Proof.KernelRow.lean ====
/-
  The kernel body's value at one row of a block, on the extended reals.

  The body's stored value is a composition of named pieces, each a function of the blocks it loads: three projections of
  the vector block's column thirds by the first gate's matrix, the first gate's hidden product, its output, the gate
  columns, three projections by the second gate's matrix, the second gate's input, and the stored block. Read at row `r`
  of the block, each piece is the node read-out's corresponding row function of row `r` of the scalar block, row `r` of
  the three column thirds of the vector block, row `r` of the position block, and the weights: the last lemma says the stored
  block at `(r, i)` is `nodeMu` of those rows.
-/
import proofs.«142957_j86973087744435_2_alg».proof.Proof.Gen.KernelIdeal.Skeleton
import proofs.«142957_j86973087744435_2_alg».proof.Proof.SpecArrays
import proofs.«142957_j86973087744435_2_alg».proof.Proof.KernelDots
import proofs.«142957_j86973087744435_2_alg».proof.Proof.LibRowwise
import proofs.«142957_j86973087744435_2_alg».proof.Proof.LibCols

noncomputable section

open scoped BigOperators

namespace Cert.KernelIdeal.Row

open Cert.KernelIdeal Cert.KernelIdeal.Gen Idealize.ShloMosaic Idealize.ShloMosaic.ValueIdx Cert.NodeSpec

variable (s : FVec Ideal S1024x256 .f32) (wg0 : FVec Ideal S256x384 .bf16) (w01 : FVec Ideal S512x512 .f32)
  (b01 : FVec Ideal S512 .f32) (w02 : FVec Ideal S512x256 .bf16) (b02 : FVec Ideal S256 .f32)
  (va vb vc : FVec Ideal S1024x256 .f32) (wg1 : FVec Ideal S128x129 .bf16) (w11 : FVec Ideal S256x256 .bf16)
  (b11 : FVec Ideal S256 .f32) (w12 : FVec Ideal S256x2 .bf16) (b12 : FVec Ideal S2 .f32) (ps : FVec Ideal S1024x3 .f32)
  (r : Fin 1024)

/-- The weights the body loads, by coordinates. -/
abbrev PP : Params := Params.ofArrays wg0 w01 b01 w02 b02 wg1 w11 b11 w12 b12
/-- Row `r` of the three column thirds of the vector block: the node's three directions. -/
abbrev VV : Fin 3 → Fin 256 → EReal := ![row2 va r, row2 vb r, row2 vc r]

/-! ## The first gate -/

theorem pay4_row (o : Fin 384) :
    k0_pay4 (F := Ideal) wg0 va (ix2 r o) = proj (PP wg0 w01 b01 w02 b02 wg1 w11 b11 w12 b12) (VV va vb vc r) 0 o := by
  unfold k0_pay4 k0_pay2
  try dsimp only
  rw [shapeCast_self, shapeCast_self]
  exact Dots.mm384 _ _ r o

theorem pay6_row (o : Fin 384) :
    k0_pay6 (F := Ideal) wg0 vb (ix2 r o) = proj (PP wg0 w01 b01 w02 b02 wg1 w11 b11 w12 b12) (VV va vb vc r) 1 o := by
  unfold k0_pay6 k0_pay2
  try dsimp only
  rw [shapeCast_self, shapeCast_self]
  exact Dots.mm384 _ _ r o

theorem pay8_row (o : Fin 384) :
    k0_pay8 (F := Ideal) wg0 vc (ix2 r o) = proj (PP wg0 w01 b01 w02 b02 wg1 w11 b11 w12 b12) (VV va vb vc r) 2 o := by
  unfold k0_pay8 k0_pay2
  try dsimp only
  rw [shapeCast_self, shapeCast_self]
  exact Dots.mm384 _ _ r o

theorem pay5_row (k : Fin 128) :
    k0_pay5 (F := Ideal) wg0 va (ix2 r k) = proj (PP wg0 w01 b01 w02 b02 wg1 w11 b11 w12 b12) (VV va vb vc r) 0 ⟨256 + k.val, by have := k.isLt; omega⟩ := by
  unfold k0_pay5
  try dsimp only
  exact (Cert.LibCols.slice_cols_apply 256 _ _ r k (by have := k.isLt; omega)).trans
    (pay4_row wg0 w01 b01 w02 b02 va vb vc wg1 w11 b11 w12 b12 r _)

theorem pay7_row (k : Fin 128) :
    k0_pay7 (F := Ideal) wg0 vb (ix2 r k) = proj (PP wg0 w01 b01 w02 b02 wg1 w11 b11 w12 b12) (VV va vb vc r) 1 ⟨256 + k.val, by have := k.isLt; omega⟩ := by
  unfold k0_pay7
  try dsimp only
  exact (Cert.LibCols.slice_cols_apply 256 _ _ r k (by have := k.isLt; omega)).trans
    (pay6_row wg0 w01 b01 w02 b02 va vb vc wg1 w11 b11 w12 b12 r _)

theorem pay9_row (k : Fin 128) :
    k0_pay9 (F := Ideal) wg0 vc (ix2 r k) = proj (PP wg0 w01 b01 w02 b02 wg1 w11 b11 w12 b12) (VV va vb vc r) 2 ⟨256 + k.val, by have := k.isLt; omega⟩ := by
  unfold k0_pay9
  try dsimp only
  exact (Cert.LibCols.slice_cols_apply 256 _ _ r k (by have := k.isLt; omega)).trans
    (pay8_row wg0 w01 b01 w02 b02 va vb vc wg1 w11 b11 w12 b12 r _)

/-- The first gate's hidden product: the input row times the first matrix. -/
theorem pay10_row (k : Fin 512) :
    k0_pay10 (F := Ideal) s wg0 w01 va vb vc (ix2 r k)
      = ∑ j : Fin 512, x1 (PP wg0 w01 b01 w02 b02 wg1 w11 b11 w12 b12) (row2 s r) (VV va vb vc r) j * (PP wg0 w01 b01 w02 b02 wg1 w11 b11 w12 b12).W01 j k := by
  unfold k0_pay10
  try dsimp only
  refine (Dots.mm512 _ _ r k).trans (Finset.sum_congr rfl fun j _ => ?_)
  refine congrArg (fun z => z * w01 (ix2 j k)) ?_
  refine truncf_eq _ _ _ _ ?_
  refine (Cert.LibRowwise.concatenate_cols_apply (a := 256) (b := 256) (c := 512) rfl _ _ _ r j).trans ?_
  unfold x1
  by_cases hj : j.val < 256
  · rw [dif_pos hj, dif_pos hj]
    rfl
  · rw [dif_neg hj, dif_neg hj]
    refine norm_cols _ _ _ _ Ideal.ofBits_zero_f32 _ _ _ _ ?_ ?_ ?_
    · exact (Cert.LibCols.slice_cols_zero_apply _ _ r _ (by have := j.isLt; omega)).trans
        (pay4_row wg0 w01 b01 w02 b02 va vb vc wg1 w11 b11 w12 b12 r _)
    · exact (Cert.LibCols.slice_cols_zero_apply _ _ r _ (by have := j.isLt; omega)).trans
        (pay6_row wg0 w01 b01 w02 b02 va vb vc wg1 w11 b11 w12 b12 r _)
    · exact (Cert.LibCols.slice_cols_zero_apply _ _ r _ (by have := j.isLt; omega)).trans
        (pay8_row wg0 w01 b01 w02 b02 va vb vc wg1 w11 b11 w12 b12 r _)

/-- The first gate's output row. -/
theorem pay12_row (k : Fin 256) :
    k0_pay12 (F := Ideal) (k0_pay3 (F := Ideal) w02) b02 (k0_pay10 (F := Ideal) s wg0 w01 va vb vc) (k0_pay11 (F := Ideal) b01) (ix2 r k) = x2 (PP wg0 w01 b01 w02 b02 wg1 w11 b11 w12 b12) (row2 s r) (VV va vb vc r) k := by
  unfold k0_pay12 k0_pay3 k0_pay11
  try dsimp only
  rw [shapeCast_self]
  unfold x2
  refine addf_eq _ _ _ _ _ ?_ (Cert.LibCols.bias_rows_apply b02 _ _ r k)
  refine (Dots.mm512x256 _ _ r k).trans (Finset.sum_congr rfl fun j _ => ?_)
  refine congrArg (fun z => z * w02 (ix2 j k)) ?_
  refine truncf_eq _ _ _ _ (silu_eq _ _ _ ?_)
  exact addf_eq _ _ _ _ _ (pay10_row s wg0 w01 b01 w02 b02 va vb vc wg1 w11 b11 w12 b12 r j) (Cert.LibCols.bias_rows_apply b01 _ _ r j)

/-- The gate columns: the last 128 columns of the first gate's output. -/
theorem pay13_row (k : Fin 128) :
    k0_pay13 (F := Ideal) (k0_pay3 (F := Ideal) w02) b02 (k0_pay10 (F := Ideal) s wg0 w01 va vb vc) (k0_pay11 (F := Ideal) b01) (ix2 r k) = x2 (PP wg0 w01 b01 w02 b02 wg1 w11 b11 w12 b12) (row2 s r) (VV va vb vc r) ⟨128 + k.val, by have := k.isLt; omega⟩ := by
  unfold k0_pay13
  try dsimp only
  exact (Cert.LibCols.slice_cols_apply 128 _ _ r k (by have := k.isLt; omega)).trans
    (pay12_row s wg0 w01 b01 w02 b02 va vb vc wg1 w11 b11 w12 b12 r _)

/-! ## The second gate -/

theorem pay17_row (o : Fin 129) :
    k0_pay17 (F := Ideal) (k0_pay3 (F := Ideal) w02) b02 (k0_pay5 (F := Ideal) wg0 va) (k0_pay10 (F := Ideal) s wg0 w01 va vb vc) (k0_pay11 (F := Ideal) b01) wg1 (ix2 r o) = proj2 (PP wg0 w01 b01 w02 b02 wg1 w11 b11 w12 b12) (row2 s r) (VV va vb vc r) 0 o := by
  unfold k0_pay17 k0_pay14
  try dsimp only
  rw [shapeCast_self]
  unfold proj2
  refine (Dots.mm129 _ _ r o).trans (Finset.sum_congr rfl fun k _ => ?_)
  refine congrArg (fun z => z * wg1 (ix2 k o)) ?_
  exact truncf_eq _ _ _ _ (mulf_eq _ _ _ _ _ (pay13_row s wg0 w01 b01 w02 b02 va vb vc wg1 w11 b11 w12 b12 r k)
    (pay5_row wg0 w01 b01 w02 b02 va vb vc wg1 w11 b11 w12 b12 r k))

theorem pay19_row (o : Fin 129) :
    k0_pay19 (F := Ideal) (k0_pay3 (F := Ideal) w02) b02 (k0_pay7 (F := Ideal) wg0 vb) (k0_pay10 (F := Ideal) s wg0 w01 va vb vc) (k0_pay11 (F := Ideal) b01) wg1 (ix2 r o) = proj2 (PP wg0 w01 b01 w02 b02 wg1 w11 b11 w12 b12) (row2 s r) (VV va vb vc r) 1 o := by
  unfold k0_pay19 k0_pay14
  try dsimp only
  rw [shapeCast_self]
  unfold proj2
  refine (Dots.mm129 _ _ r o).trans (Finset.sum_congr rfl fun k _ => ?_)
  refine congrArg (fun z => z * wg1 (ix2 k o)) ?_
  exact truncf_eq _ _ _ _ (mulf_eq _ _ _ _ _ (pay13_row s wg0 w01 b01 w02 b02 va vb vc wg1 w11 b11 w12 b12 r k)
    (pay7_row wg0 w01 b01 w02 b02 va vb vc wg1 w11 b11 w12 b12 r k))

theorem pay21_row (o : Fin 129) :
    k0_pay21 (F := Ideal) (k0_pay3 (F := Ideal) w02) b02 (k0_pay9 (F := Ideal) wg0 vc) (k0_pay10 (F := Ideal) s wg0 w01 va vb vc) (k0_pay11 (F := Ideal) b01) wg1 (ix2 r o) = proj2 (PP wg0 w01 b01 w02 b02 wg1 w11 b11 w12 b12) (row2 s r) (VV va vb vc r) 2 o := by
  unfold k0_pay21 k0_pay14
  try dsimp only
  rw [shapeCast_self]
  unfold proj2
  refine (Dots.mm129 _ _ r o).trans (Finset.sum_congr rfl fun k _ => ?_)
  refine congrArg (fun z => z * wg1 (ix2 k o)) ?_
  exact truncf_eq _ _ _ _ (mulf_eq _ _ _ _ _ (pay13_row s wg0 w01 b01 w02 b02 va vb vc wg1 w11 b11 w12 b12 r k)
    (pay9_row wg0 w01 b01 w02 b02 va vb vc wg1 w11 b11 w12 b12 r k))

theorem pay18_row (u : Fin 1) :
    k0_pay18 (F := Ideal) (k0_pay3 (F := Ideal) w02) b02 (k0_pay5 (F := Ideal) wg0 va) (k0_pay10 (F := Ideal) s wg0 w01 va vb vc) (k0_pay11 (F := Ideal) b01) wg1 (ix2 r u) = proj2 (PP wg0 w01 b01 w02 b02 wg1 w11 b11 w12 b12) (row2 s r) (VV va vb vc r) 0 ⟨128, by omega⟩ := by
  unfold k0_pay18
  try dsimp only
  have hu : u.val = 0 := by omega
  exact (Cert.LibCols.slice_cols_apply 128 _ _ r u (by omega)).trans
    ((pay17_row s wg0 w01 b01 w02 b02 va vb vc wg1 w11 b11 w12 b12 r _).trans (congrArg (proj2 (PP wg0 w01 b01 w02 b02 wg1 w11 b11 w12 b12) (row2 s r) (VV va vb vc r) 0) (Fin.ext (by show 128 + u.val = 128; omega))))

theorem pay20_row (u : Fin 1) :
    k0_pay20 (F := Ideal) (k0_pay3 (F := Ideal) w02) b02 (k0_pay7 (F := Ideal) wg0 vb) (k0_pay10 (F := Ideal) s wg0 w01 va vb vc) (k0_pay11 (F := Ideal) b01) wg1 (ix2 r u) = proj2 (PP wg0 w01 b01 w02 b02 wg1 w11 b11 w12 b12) (row2 s r) (VV va vb vc r) 1 ⟨128, by omega⟩ := by
  unfold k0_pay20
  try dsimp only
  have hu : u.val = 0 := by omega
  exact (Cert.LibCols.slice_cols_apply 128 _ _ r u (by omega)).trans
    ((pay19_row s wg0 w01 b01 w02 b02 va vb vc wg1 w11 b11 w12 b12 r _).trans (congrArg (proj2 (PP wg0 w01 b01 w02 b02 wg1 w11 b11 w12 b12) (row2 s r) (VV va vb vc r) 1) (Fin.ext (by show 128 + u.val = 128; omega))))

theorem pay22_row (u : Fin 1) :
    k0_pay22 (F := Ideal) (k0_pay3 (F := Ideal) w02) b02 (k0_pay9 (F := Ideal) wg0 vc) (k0_pay10 (F := Ideal) s wg0 w01 va vb vc) (k0_pay11 (F := Ideal) b01) wg1 (ix2 r u) = proj2 (PP wg0 w01 b01 w02 b02 wg1 w11 b11 w12 b12) (row2 s r) (VV va vb vc r) 2 ⟨128, by omega⟩ := by
  unfold k0_pay22
  try dsimp only
  have hu : u.val = 0 := by omega
  exact (Cert.LibCols.slice_cols_apply 128 _ _ r u (by omega)).trans
    ((pay21_row s wg0 w01 b01 w02 b02 va vb vc wg1 w11 b11 w12 b12 r _).trans (congrArg (proj2 (PP wg0 w01 b01 w02 b02 wg1 w11 b11 w12 b12) (row2 s r) (VV va vb vc r) 2) (Fin.ext (by show 128 + u.val = 128; omega))))

/-- The second gate's input row. -/
theorem pay23_row (j : Fin 256) :
    k0_pay23 (F := Ideal) (k0_pay3 (F := Ideal) w02) b02 (k0_pay5 (F := Ideal) wg0 va) (k0_pay7 (F := Ideal) wg0 vb) (k0_pay9 (F := Ideal) wg0 vc) (k0_pay10 (F := Ideal) s wg0 w01 va vb vc) (k0_pay11 (F := Ideal) b01) wg1 (ix2 r j)
      = x3 (PP wg0 w01 b01 w02 b02 wg1 w11 b11 w12 b12) (row2 s r) (VV va vb vc r) j := by
  unfold k0_pay23
  try dsimp only
  refine truncf_eq _ _ _ _ ?_
  refine (Cert.LibRowwise.concatenate_cols_apply (a := 128) (b := 128) (c := 256) rfl _ _ _ r j).trans ?_
  unfold x3
  by_cases hj : j.val < 128
  · rw [dif_pos hj, dif_pos hj]
    exact silu_eq _ _ _ ((Cert.LibCols.slice_cols_zero_apply _ _ r ⟨j.val, hj⟩ (by show j.val < 256; omega)).trans
      (pay12_row s wg0 w01 b01 w02 b02 va vb vc wg1 w11 b11 w12 b12 r _))
  · rw [dif_neg hj, dif_neg hj]
    refine norm_cols _ _ _ _ Ideal.ofBits_zero_f32 _ _ _ _ ?_ ?_ ?_
    · exact (Cert.LibCols.slice_cols_zero_apply _ _ r _ (by have := j.isLt; omega)).trans
        (pay17_row s wg0 w01 b01 w02 b02 va vb vc wg1 w11 b11 w12 b12 r _)
    · exact (Cert.LibCols.slice_cols_zero_apply _ _ r _ (by have := j.isLt; omega)).trans
        (pay19_row s wg0 w01 b01 w02 b02 va vb vc wg1 w11 b11 w12 b12 r _)
    · exact (Cert.LibCols.slice_cols_zero_apply _ _ r _ (by have := j.isLt; omega)).trans
        (pay21_row s wg0 w01 b01 w02 b02 va vb vc wg1 w11 b11 w12 b12 r _)

/-! ## The stored block -/

/-- The second gate's hidden block before its activation: its input block times the third matrix, plus the bias. -/
def hid2 (X3 : FVec Ideal S1024x256 .bf16) : FVec Ideal S1024x256 .f32 :=
  addf (matmul dot_S1024x256_S256x256_S1024x256_1_0_0_1_n_n none X3 w11 (constant S1024x256 .f32 0x00000000#32))
    (broadcastTo S1024x256 (shapeCast S1x256 b11 shapeCasts_S256_S1x256) broadcasts_S1x256_S1024x256)

/-- The second gate's output block: `silu` of the hidden block times the fourth matrix, plus the bias. -/
def gate2 (X3 : FVec Ideal S1024x256 .bf16) : FVec Ideal S1024x2 .f32 :=
  addf (matmul dot_S1024x256_S256x2_S1024x2_1_0_0_1_n_n none
      (truncf .bf16 (mulf (hid2 w11 b11 X3) (logistic (hid2 w11 b11 X3))) bitsLt_bf16_f32) w12 (constant S1024x2 .f32 0x00000000#32))
    (broadcastTo S1024x2 (shapeCast S1x2 b12 shapeCasts_S2_S1x2) broadcasts_S1x2_S1024x2)

theorem gate2_row (X3 : FVec Ideal S1024x256 .bf16) (x3row : Fin 256 → EReal) (hX3 : ∀ j, X3 (ix2 r j) = x3row j) (k : Fin 2) :
    gate2 w11 b11 w12 b12 X3 (ix2 r k)
      = ∑ j : Fin 256, silu (∑ l : Fin 256, x3row l * w11 (ix2 l j) + b11 (ix1 j)) * w12 (ix2 j k) + b12 (ix1 k) := by
  unfold gate2
  refine addf_eq _ _ _ _ _ ?_ (Cert.LibCols.bias_rows_apply b12 _ _ r k)
  refine (Dots.mm2 _ _ r k).trans (Finset.sum_congr rfl fun j _ => ?_)
  refine congrArg (fun z => z * w12 (ix2 j k)) ?_
  refine truncf_eq _ _ _ _ (silu_eq _ _ _ ?_)
  unfold hid2
  refine addf_eq _ _ _ _ _ ?_ (Cert.LibCols.bias_rows_apply b11 _ _ r j)
  refine (Dots.mm256 _ _ r j).trans (Finset.sum_congr rfl fun l _ => ?_)
  exact congrArg (fun z => z * w11 (ix2 l j)) (hX3 l)

/-- The block the body stores, at `(r, i)`: the read-out of row `r`'s node along direction `i`. -/
theorem pay1_row (i : Fin 3) :
    k0_pay1 (F := Ideal) (k0_pay15 (F := Ideal) w11) b11 (k0_pay16 (F := Ideal) w12) b12 (k0_pay18 (F := Ideal) (k0_pay3 (F := Ideal) w02) b02 (k0_pay5 (F := Ideal) wg0 va) (k0_pay10 (F := Ideal) s wg0 w01 va vb vc) (k0_pay11 (F := Ideal) b01) wg1) (k0_pay20 (F := Ideal) (k0_pay3 (F := Ideal) w02) b02 (k0_pay7 (F := Ideal) wg0 vb) (k0_pay10 (F := Ideal) s wg0 w01 va vb vc) (k0_pay11 (F := Ideal) b01) wg1) (k0_pay22 (F := Ideal) (k0_pay3 (F := Ideal) w02) b02 (k0_pay9 (F := Ideal) wg0 vc) (k0_pay10 (F := Ideal) s wg0 w01 va vb vc) (k0_pay11 (F := Ideal) b01) wg1)
      (k0_pay23 (F := Ideal) (k0_pay3 (F := Ideal) w02) b02 (k0_pay5 (F := Ideal) wg0 va) (k0_pay7 (F := Ideal) wg0 vb) (k0_pay9 (F := Ideal) wg0 vc) (k0_pay10 (F := Ideal) s wg0 w01 va vb vc) (k0_pay11 (F := Ideal) b01) wg1) (constant S1024x256 .f32 0x00000000#32) ps (ix2 r i)
      = nodeMu (PP wg0 w01 b01 w02 b02 wg1 w11 b11 w12 b12) (row2 s r) (VV va vb vc r) (row2 ps r) i := by
  have hg : ∀ k : Fin 2, gate2 w11 b11 w12 b12 (k0_pay23 (F := Ideal) (k0_pay3 (F := Ideal) w02) b02 (k0_pay5 (F := Ideal) wg0 va) (k0_pay7 (F := Ideal) wg0 vb) (k0_pay9 (F := Ideal) wg0 vc) (k0_pay10 (F := Ideal) s wg0 w01 va vb vc) (k0_pay11 (F := Ideal) b01) wg1) (ix2 r k) = x4 (PP wg0 w01 b01 w02 b02 wg1 w11 b11 w12 b12) (row2 s r) (VV va vb vc r) k := fun k =>
    (gate2_row w11 b11 w12 b12 r (k0_pay23 (F := Ideal) (k0_pay3 (F := Ideal) w02) b02 (k0_pay5 (F := Ideal) wg0 va) (k0_pay7 (F := Ideal) wg0 vb) (k0_pay9 (F := Ideal) wg0 vc) (k0_pay10 (F := Ideal) s wg0 w01 va vb vc) (k0_pay11 (F := Ideal) b01) wg1) (x3 (PP wg0 w01 b01 w02 b02 wg1 w11 b11 w12 b12) (row2 s r) (VV va vb vc r))
      (fun j => pay23_row s wg0 w01 b01 w02 b02 va vb vc wg1 w11 b11 w12 b12 r j) k).trans rfl
  unfold k0_pay1 k0_pay15 k0_pay16
  try dsimp only
  rw [shapeCast_self, shapeCast_self]
  unfold nodeMu
  refine addf_eq _ _ _ _ _ ?_ ?_
  · refine (Cert.LibCols.concat3_unit_cols_apply _ _ _ _ r i).trans ?_
    match i with
    | ⟨0, _⟩ =>
      exact mulf_eq _ _ _ _ _ ((Cert.LibCols.slice_cols_apply 1 _ _ r 0 (by decide)).trans (hg _)) (pay18_row s wg0 w01 b01 w02 b02 va vb vc wg1 w11 b11 w12 b12 r 0)
    | ⟨1, _⟩ =>
      exact mulf_eq _ _ _ _ _ ((Cert.LibCols.slice_cols_apply 1 _ _ r 0 (by decide)).trans (hg _)) (pay20_row s wg0 w01 b01 w02 b02 va vb vc wg1 w11 b11 w12 b12 r 0)
    | ⟨2, _⟩ =>
      exact mulf_eq _ _ _ _ _ ((Cert.LibCols.slice_cols_apply 1 _ _ r 0 (by decide)).trans (hg _)) (pay22_row s wg0 w01 b01 w02 b02 va vb vc wg1 w11 b11 w12 b12 r 0)
  · refine mulf_eq _ _ _ _ _ ?_ rfl
    refine (Cert.LibCols.col_bcast_apply _ _ r i).trans ?_
    exact addf_eq _ _ _ _ _ (mulf_eq _ _ _ _ _ ((Cert.LibCols.slice_cols_zero_apply _ _ r 0 (by decide)).trans (hg _)) rfl) rfl

end Cert.KernelIdeal.Row

end
-- ==== Proof.Blocks.lean ====
/-
  From the kernel's blocks to its output array, on the extended reals.

  The grid has 128 points; point `t` stages rows `[1024 t, 1024 t + 1024)` of the scalar array, of the vector array laid
  flat as `[N, 768]` (direction `i` in columns `[256 i, 256 i + 256)`), and of the position array, every weight whole, and
  writes back rows `[1024 t, 1024 t + 1024)` of the output. So what point `t` writes back at `(p, i)` is the node read-out
  of node `1024 t + p`, the blocks of the 128 points tile the output array, and the array ends holding the read-out of
  every node: `nodeMuArr` of the argument arrays.
-/
import proofs.«142957_j86973087744435_2_alg».proof.Proof.Gen.KernelIdeal.Frame
import proofs.«142957_j86973087744435_2_alg».proof.Proof.KernelRow
import Idealize.ShloMosaic.Lib.Pipeline.Value
import Idealize.ShloMosaic.Lib.StableHlo.Run

set_option maxRecDepth 16384

noncomputable section

namespace Cert.KernelIdeal.Blocks

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)
open Cert.KernelIdeal Cert.KernelIdeal.Gen Idealize.ShloMosaic.ValueIdx Cert.NodeSpec

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-! ## The arrays the region finds: the host lines before it -/

/-- The vector array laid flat: `[N, 3, 256]` recast to `[N, 768]`. -/
theorem V_main_v0 (c : Dev nD) : (V m c main_v0 : S131072x768.Idx → EReal)
    = shapeCast S131072x768 (m ((c : Thread nD τ).loc main_arg2)) shapeCasts_S131072x3x256_S131072x768 := by
  show StableHlo.after hostOps0 (fun b => m (c, b)) (Proc.devRef .tc main_v0) = _
  after_results
  rfl

theorem V_main_v1 (c : Dev nD) : (V m c main_v1 : S256x384.Idx → EReal) = fun y => (m ((c : Thread nD τ).loc main_arg4)) y := by
  show StableHlo.after hostOps0 (fun b => m (c, b)) (Proc.devRef .tc main_v1) = _
  after_results
  rfl

theorem V_main_v3 (c : Dev nD) : (V m c main_v3 : S512x256.Idx → EReal) = fun y => (m ((c : Thread nD τ).loc main_arg7)) y := by
  show StableHlo.after hostOps0 (fun b => m (c, b)) (Proc.devRef .tc main_v3) = _
  after_results
  rfl

theorem V_main_v4 (c : Dev nD) : (V m c main_v4 : S128x129.Idx → EReal) = fun y => (m ((c : Thread nD τ).loc main_arg9)) y := by
  show StableHlo.after hostOps0 (fun b => m (c, b)) (Proc.devRef .tc main_v4) = _
  after_results
  rfl

theorem V_main_v5 (c : Dev nD) : (V m c main_v5 : S256x256.Idx → EReal) = fun y => (m ((c : Thread nD τ).loc main_arg10)) y := by
  show StableHlo.after hostOps0 (fun b => m (c, b)) (Proc.devRef .tc main_v5) = _
  after_results
  rfl

theorem V_main_v6 (c : Dev nD) : (V m c main_v6 : S256x2.Idx → EReal) = fun y => (m ((c : Thread nD τ).loc main_arg12)) y := by
  show StableHlo.after hostOps0 (fun b => m (c, b)) (Proc.devRef .tc main_v6) = _
  after_results
  rfl

/-! ## The printed index maps, decided over the grid -/

theorem idx_facts : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_13.index t (0 : Fin 2) = t.val
    ∧ win0_13.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 1) = 0
    ∧ win0_6.index t (0 : Fin 2) = 0
    ∧ win0_6.index t (1 : Fin 2) = 0
    ∧ win0_7.index t (0 : Fin 1) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 1) = 0
    ∧ win0_11.index t (0 : Fin 2) = 0
    ∧ win0_11.index t (1 : Fin 2) = 0
    ∧ win0_12.index t (0 : Fin 1) = 0 :=
  (by decide +kernel : ∀ t : Fin grid0.N, _)

/-! ## Each weight's block is the weight -/

theorem blk3 (c : Dev nD) (t : Fin cfg0.N) : (iblk m c 3 t : S256x384.Idx → EReal) = fun y => (m ((c : Thread nD τ).loc main_arg4)) y := by
  funext y
  unfold iblk
  show V m c main_v1 (((cfg0.win 3).blk t).view.emb y) = _
  rw [V_main_v1 m c]
  obtain ⟨e0, e1, e2, e3, e4, e5, e6, e7, e8, e9, e10, e11, e12, e13, e14, e15, e16, e17, e18, e19, e20, e21, e22, e23⟩ := idx_facts t
  refine congrArg (m ((c : Thread nD τ).loc main_arg4)) (funext fun a => Fin.ext ?_)
  match a with
    | ⟨0, _⟩ => show win0_3.index t (0 : Fin 2) * 256 + 1 * (y 0).val = (y 0).val; omega
    | ⟨1, _⟩ => show win0_3.index t (1 : Fin 2) * 384 + 1 * (y 1).val = (y 1).val; omega

theorem blk4 (c : Dev nD) (t : Fin cfg0.N) : (iblk m c 4 t : S512x512.Idx → EReal) = fun y => (m ((c : Thread nD τ).loc main_arg5)) y := by
  funext y
  unfold iblk
  show V m c main_arg5 (((cfg0.win 4).blk t).view.emb y) = _
  rw [V_main_arg5 m c]
  obtain ⟨e0, e1, e2, e3, e4, e5, e6, e7, e8, e9, e10, e11, e12, e13, e14, e15, e16, e17, e18, e19, e20, e21, e22, e23⟩ := idx_facts t
  refine congrArg (m ((c : Thread nD τ).loc main_arg5)) (funext fun a => Fin.ext ?_)
  match a with
    | ⟨0, _⟩ => show win0_4.index t (0 : Fin 2) * 512 + 1 * (y 0).val = (y 0).val; omega
    | ⟨1, _⟩ => show win0_4.index t (1 : Fin 2) * 512 + 1 * (y 1).val = (y 1).val; omega

theorem blk5 (c : Dev nD) (t : Fin cfg0.N) : (iblk m c 5 t : S512.Idx → EReal) = fun y => (m ((c : Thread nD τ).loc main_arg6)) y := by
  funext y
  unfold iblk
  show V m c main_arg6 (((cfg0.win 5).blk t).view.emb y) = _
  rw [V_main_arg6 m c]
  obtain ⟨e0, e1, e2, e3, e4, e5, e6, e7, e8, e9, e10, e11, e12, e13, e14, e15, e16, e17, e18, e19, e20, e21, e22, e23⟩ := idx_facts t
  refine congrArg (m ((c : Thread nD τ).loc main_arg6)) (funext fun a => Fin.ext ?_)
  match a with
    | ⟨0, _⟩ => show win0_5.index t (0 : Fin 1) * 512 + 1 * (y 0).val = (y 0).val; omega

theorem blk6 (c : Dev nD) (t : Fin cfg0.N) : (iblk m c 6 t : S512x256.Idx → EReal) = fun y => (m ((c : Thread nD τ).loc main_arg7)) y := by
  funext y
  unfold iblk
  show V m c main_v3 (((cfg0.win 6).blk t).view.emb y) = _
  rw [V_main_v3 m c]
  obtain ⟨e0, e1, e2, e3, e4, e5, e6, e7, e8, e9, e10, e11, e12, e13, e14, e15, e16, e17, e18, e19, e20, e21, e22, e23⟩ := idx_facts t
  refine congrArg (m ((c : Thread nD τ).loc main_arg7)) (funext fun a => Fin.ext ?_)
  match a with
    | ⟨0, _⟩ => show win0_6.index t (0 : Fin 2) * 512 + 1 * (y 0).val = (y 0).val; omega
    | ⟨1, _⟩ => show win0_6.index t (1 : Fin 2) * 256 + 1 * (y 1).val = (y 1).val; omega

theorem blk7 (c : Dev nD) (t : Fin cfg0.N) : (iblk m c 7 t : S256.Idx → EReal) = fun y => (m ((c : Thread nD τ).loc main_arg8)) y := by
  funext y
  unfold iblk
  show V m c main_arg8 (((cfg0.win 7).blk t).view.emb y) = _
  rw [V_main_arg8 m c]
  obtain ⟨e0, e1, e2, e3, e4, e5, e6, e7, e8, e9, e10, e11, e12, e13, e14, e15, e16, e17, e18, e19, e20, e21, e22, e23⟩ := idx_facts t
  refine congrArg (m ((c : Thread nD τ).loc main_arg8)) (funext fun a => Fin.ext ?_)
  match a with
    | ⟨0, _⟩ => show win0_7.index t (0 : Fin 1) * 256 + 1 * (y 0).val = (y 0).val; omega

theorem blk8 (c : Dev nD) (t : Fin cfg0.N) : (iblk m c 8 t : S128x129.Idx → EReal) = fun y => (m ((c : Thread nD τ).loc main_arg9)) y := by
  funext y
  unfold iblk
  show V m c main_v4 (((cfg0.win 8).blk t).view.emb y) = _
  rw [V_main_v4 m c]
  obtain ⟨e0, e1, e2, e3, e4, e5, e6, e7, e8, e9, e10, e11, e12, e13, e14, e15, e16, e17, e18, e19, e20, e21, e22, e23⟩ := idx_facts t
  refine congrArg (m ((c : Thread nD τ).loc main_arg9)) (funext fun a => Fin.ext ?_)
  match a with
    | ⟨0, _⟩ => show win0_8.index t (0 : Fin 2) * 128 + 1 * (y 0).val = (y 0).val; omega
    | ⟨1, _⟩ => show win0_8.index t (1 : Fin 2) * 129 + 1 * (y 1).val = (y 1).val; omega

theorem blk9 (c : Dev nD) (t : Fin cfg0.N) : (iblk m c 9 t : S256x256.Idx → EReal) = fun y => (m ((c : Thread nD τ).loc main_arg10)) y := by
  funext y
  unfold iblk
  show V m c main_v5 (((cfg0.win 9).blk t).view.emb y) = _
  rw [V_main_v5 m c]
  obtain ⟨e0, e1, e2, e3, e4, e5, e6, e7, e8, e9, e10, e11, e12, e13, e14, e15, e16, e17, e18, e19, e20, e21, e22, e23⟩ := idx_facts t
  refine congrArg (m ((c : Thread nD τ).loc main_arg10)) (funext fun a => Fin.ext ?_)
  match a with
    | ⟨0, _⟩ => show win0_9.index t (0 : Fin 2) * 256 + 1 * (y 0).val = (y 0).val; omega
    | ⟨1, _⟩ => show win0_9.index t (1 : Fin 2) * 256 + 1 * (y 1).val = (y 1).val; omega

theorem blk10 (c : Dev nD) (t : Fin cfg0.N) : (iblk m c 10 t : S256.Idx → EReal) = fun y => (m ((c : Thread nD τ).loc main_arg11)) y := by
  funext y
  unfold iblk
  show V m c main_arg11 (((cfg0.win 10).blk t).view.emb y) = _
  rw [V_main_arg11 m c]
  obtain ⟨e0, e1, e2, e3, e4, e5, e6, e7, e8, e9, e10, e11, e12, e13, e14, e15, e16, e17, e18, e19, e20, e21, e22, e23⟩ := idx_facts t
  refine congrArg (m ((c : Thread nD τ).loc main_arg11)) (funext fun a => Fin.ext ?_)
  match a with
    | ⟨0, _⟩ => show win0_10.index t (0 : Fin 1) * 256 + 1 * (y 0).val = (y 0).val; omega

theorem blk11 (c : Dev nD) (t : Fin cfg0.N) : (iblk m c 11 t : S256x2.Idx → EReal) = fun y => (m ((c : Thread nD τ).loc main_arg12)) y := by
  funext y
  unfold iblk
  show V m c main_v6 (((cfg0.win 11).blk t).view.emb y) = _
  rw [V_main_v6 m c]
  obtain ⟨e0, e1, e2, e3, e4, e5, e6, e7, e8, e9, e10, e11, e12, e13, e14, e15, e16, e17, e18, e19, e20, e21, e22, e23⟩ := idx_facts t
  refine congrArg (m ((c : Thread nD τ).loc main_arg12)) (funext fun a => Fin.ext ?_)
  match a with
    | ⟨0, _⟩ => show win0_11.index t (0 : Fin 2) * 256 + 1 * (y 0).val = (y 0).val; omega
    | ⟨1, _⟩ => show win0_11.index t (1 : Fin 2) * 2 + 1 * (y 1).val = (y 1).val; omega

theorem blk12 (c : Dev nD) (t : Fin cfg0.N) : (iblk m c 12 t : S2.Idx → EReal) = fun y => (m ((c : Thread nD τ).loc main_arg13)) y := by
  funext y
  unfold iblk
  show V m c main_arg13 (((cfg0.win 12).blk t).view.emb y) = _
  rw [V_main_arg13 m c]
  obtain ⟨e0, e1, e2, e3, e4, e5, e6, e7, e8, e9, e10, e11, e12, e13, e14, e15, e16, e17, e18, e19, e20, e21, e22, e23⟩ := idx_facts t
  refine congrArg (m ((c : Thread nD τ).loc main_arg13)) (funext fun a => Fin.ext ?_)
  match a with
    | ⟨0, _⟩ => show win0_12.index t (0 : Fin 1) * 2 + 1 * (y 0).val = (y 0).val; omega

/-! ## The row blocks -/

/-- Row `p` of point `t`'s block is node `1024 t + p`. -/
abbrev node (t : Fin cfg0.N) (p : Fin 1024) : Fin 131072 := ⟨t.val * 1024 + p.val, by
  have h1 : t.val < 128 := t.isLt
  have h2 := p.isLt
  omega⟩

theorem blk0 (c : Dev nD) (t : Fin cfg0.N) (p : Fin 1024) (j : Fin 256) :
    iblk m c 0 t (ix2 p j) = (m ((c : Thread nD τ).loc main_arg1)) (ix2 (node t p) j) := by
  unfold iblk
  show V m c main_arg1 (((cfg0.win 0).blk t).view.emb (ix2 p j)) = _
  rw [V_main_arg1 m c]
  obtain ⟨e0, e1, e2, e3, e4, e5, e6, e7, e8, e9, e10, e11, e12, e13, e14, e15, e16, e17, e18, e19, e20, e21, e22, e23⟩ := idx_facts t
  refine congrArg (m ((c : Thread nD τ).loc main_arg1)) (funext fun a => Fin.ext ?_)
  match a with
    | ⟨0, _⟩ => show win0_0.index t (0 : Fin 2) * 1024 + 1 * p.val = t.val * 1024 + p.val; omega
    | ⟨1, _⟩ => show win0_0.index t (1 : Fin 2) * 256 + 1 * j.val = j.val; omega

theorem blk2 (c : Dev nD) (t : Fin cfg0.N) (p : Fin 1024) (i : Fin 3) :
    iblk m c 2 t (ix2 p i) = (m ((c : Thread nD τ).loc main_arg0)) (ix2 (node t p) i) := by
  unfold iblk
  show V m c main_arg0 (((cfg0.win 2).blk t).view.emb (ix2 p i)) = _
  rw [V_main_arg0 m c]
  obtain ⟨e0, e1, e2, e3, e4, e5, e6, e7, e8, e9, e10, e11, e12, e13, e14, e15, e16, e17, e18, e19, e20, e21, e22, e23⟩ := idx_facts t
  refine congrArg (m ((c : Thread nD τ).loc main_arg0)) (funext fun a => Fin.ext ?_)
  match a with
    | ⟨0, _⟩ => show win0_2.index t (0 : Fin 2) * 1024 + 1 * p.val = t.val * 1024 + p.val; omega
    | ⟨1, _⟩ => show win0_2.index t (1 : Fin 2) * 3 + 1 * i.val = i.val; omega

/-- Column `256 d + f` of the flat vector block's row `p` is direction `d`, feature `f` of node `1024 t + p`. -/
theorem blk1 (c : Dev nD) (t : Fin cfg0.N) (p : Fin 1024) (d : Fin 3) (f : Fin 256) (y : S1024x768.Idx)
    (hy0 : (y 0).val = p.val) (hy1 : (y 1).val = 256 * d.val + f.val) :
    iblk m c 1 t y = (m ((c : Thread nD τ).loc main_arg2)) (ix3 (node t p) d f) := by
  unfold iblk
  show V m c main_v0 (((cfg0.win 1).blk t).view.emb y) = _
  rw [V_main_v0 m c]
  obtain ⟨e0, e1, e2, e3, e4, e5, e6, e7, e8, e9, e10, e11, e12, e13, e14, e15, e16, e17, e18, e19, e20, e21, e22, e23⟩ := idx_facts t
  refine shapeCast_apply (s := S131072x3x256) (t := S131072x768) _ _ _ _ ?_
  show ((⟨3, ![131072, 3, 256]⟩ : Shape).rowMajor (ix3 (node t p) d f)).val
    = ((⟨2, ![131072, 768]⟩ : Shape).rowMajor (((cfg0.win 1).blk t).view.emb y)).val
  rw [Shape.rowMajor_val_three, Shape.rowMajor_val_two]
  show ((t.val * 1024 + p.val) * 3 + d.val) * 256 + f.val
    = (win0_1.index t (0 : Fin 2) * 1024 + 1 * (y 0).val) * 768 + (win0_1.index t (1 : Fin 2) * 768 + 1 * (y 1).val)
  have := d.isLt
  omega

theorem ld6 (c : Dev nD) (t : Fin cfg0.N) (p : Fin 1024) (f : Fin 256) :
    View.ld (iblk m c 1 t) r0_6 (ix2 p f) = (m ((c : Thread nD τ).loc main_arg2)) (ix3 (node t p) 0 f) := by
  show iblk m c 1 t (r0_6.emb (ix2 p f)) = _
  exact blk1 m c t p 0 f _ (by show 0 + 1 * p.val = p.val; omega) (by show 0 + 1 * f.val = 256 * 0 + f.val; omega)

theorem ld7 (c : Dev nD) (t : Fin cfg0.N) (p : Fin 1024) (f : Fin 256) :
    View.ld (iblk m c 1 t) r0_7 (ix2 p f) = (m ((c : Thread nD τ).loc main_arg2)) (ix3 (node t p) 1 f) := by
  show iblk m c 1 t (r0_7.emb (ix2 p f)) = _
  exact blk1 m c t p 1 f _ (by show 0 + 1 * p.val = p.val; omega) (by show 256 + 1 * f.val = 256 * 1 + f.val; omega)

theorem ld8 (c : Dev nD) (t : Fin cfg0.N) (p : Fin 1024) (f : Fin 256) :
    View.ld (iblk m c 1 t) r0_8 (ix2 p f) = (m ((c : Thread nD τ).loc main_arg2)) (ix3 (node t p) 2 f) := by
  show iblk m c 1 t (r0_8.emb (ix2 p f)) = _
  exact blk1 m c t p 2 f _ (by show 0 + 1 * p.val = p.val; omega) (by show 512 + 1 * f.val = 256 * 2 + f.val; omega)

/-! ## What a point writes back, the cover, the array -/

/-- The read-out of every node, as one array of the argument arrays. -/
abbrev Garr (c : Dev nD) : S131072x3.Idx → EReal :=
  nodeMuArr (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

theorem emb13 (t : Fin cfg0.N) (p : Fin 1024) (i : Fin 3) :
    ((cfg0.win 13).blk t).view.emb (ix2 p i) = ix2 (node t p) i := by
  obtain ⟨e0, e1, e2, e3, e4, e5, e6, e7, e8, e9, e10, e11, e12, e13, e14, e15, e16, e17, e18, e19, e20, e21, e22, e23⟩ := idx_facts t
  funext a
  refine Fin.ext ?_
  match a with
    | ⟨0, _⟩ => show win0_13.index t (0 : Fin 2) * 1024 + 1 * p.val = t.val * 1024 + p.val; omega
    | ⟨1, _⟩ => show win0_13.index t (1 : Fin 2) * 3 + 1 * i.val = i.val; omega

/-- What point `t` writes back is block `t` of the read-out array. -/
theorem flushed_eq (c : Dev nD) (t : Fin cfg0.N) :
    (dats m 0 c).flushed 13 t = ((cfg0.win 13).blk t).view.read (Elt Ideal) (Garr m c) := by
  show (cfg0.win 13).cut (grid0.coords t) ((dats m 0 c).after 13 t) = _
  rw [after0_13]
  unfold out0_13
  rw [View.canon_unit_zero hz2]
  simp only [View.ld_unit_zero (S := S1024x256) hz2, View.ld_unit_zero (S := S256x384) hz2, View.ld_unit_zero (S := S512x512) hz2,
    View.ld_unit_zero (S := S512) hz1, View.ld_unit_zero (S := S512x256) hz2, View.ld_unit_zero (S := S256) hz1,
    View.ld_unit_zero (S := S128x129) hz2, View.ld_unit_zero (S := S256x256) hz2, View.ld_unit_zero (S := S256x2) hz2,
    View.ld_unit_zero (S := S2) hz1, View.ld_unit_zero (S := S1024x3) hz2]
  rw [blk3 m c t, blk4 m c t, blk5 m c t, blk6 m c t, blk7 m c t, blk8 m c t, blk9 m c t, blk10 m c t, blk11 m c t, blk12 m c t]
  funext y
  obtain ⟨p, i, rfl⟩ : ∃ (p : Fin 1024) (i : Fin 3), y = ix2 p i := ⟨y 0, y 1, eq_ix2 y⟩
  refine (Row.pay1_row (iblk m c 0 t) (fun y => (m ((c : Thread nD τ).loc main_arg4)) y) (fun y => (m ((c : Thread nD τ).loc main_arg5)) y) (fun y => (m ((c : Thread nD τ).loc main_arg6)) y) (fun y => (m ((c : Thread nD τ).loc main_arg7)) y)
    (fun y => (m ((c : Thread nD τ).loc main_arg8)) y) (View.ld (iblk m c 1 t) r0_6) (View.ld (iblk m c 1 t) r0_7) (View.ld (iblk m c 1 t) r0_8)
    (fun y => (m ((c : Thread nD τ).loc main_arg9)) y) (fun y => (m ((c : Thread nD τ).loc main_arg10)) y) (fun y => (m ((c : Thread nD τ).loc main_arg11)) y) (fun y => (m ((c : Thread nD τ).loc main_arg12)) y) (fun y => (m ((c : Thread nD τ).loc main_arg13)) y)
    (iblk m c 2 t) p i).trans ?_
  show _ = Garr m c (((cfg0.win 13).blk t).view.emb (ix2 p i))
  rw [emb13 t p i]
  have hS : row2 (iblk m c 0 t) p = row2 (m ((c : Thread nD τ).loc main_arg1)) (node t p) := funext fun j => blk0 m c t p j
  have hP : row2 (iblk m c 2 t) p = row2 (m ((c : Thread nD τ).loc main_arg0)) (node t p) := funext fun j => blk2 m c t p j
  have hV : Row.VV (View.ld (iblk m c 1 t) r0_6) (View.ld (iblk m c 1 t) r0_7) (View.ld (iblk m c 1 t) r0_8) p
      = fun d f => (m ((c : Thread nD τ).loc main_arg2)) (ix3 (node t p) d f) := by
    funext d f
    match d with
    | ⟨0, _⟩ => exact ld6 m c t p f
    | ⟨1, _⟩ => exact ld7 m c t p f
    | ⟨2, _⟩ => exact ld8 m c t p f
  rw [hS, hP, hV]
  rfl

theorem mem_blk13 (t : Fin cfg0.N) (i : S131072x3.Idx) :
    i ∈ ((cfg0.win 13).blk t).view.set ↔ ∀ a : Fin 2, win0_13.index t a * S1024x3.size a ≤ (i a).val ∧ (i a).val < win0_13.index t a * S1024x3.size a + S1024x3.size a := by
  show i ∈ ((View.whole main_v7).slice (win0_13.rect t)).set ↔ _
  rw [View.set_slice_whole, Rect.mem_set_unit]
  exact Iff.rfl

/-- Every index of the output array lies in the block of the point its row falls in. -/
theorem cover (i : S131072x3.Idx) : ∃ t : Fin cfg0.N, (cfg0.win 13).flush t = true ∧ i ∈ ((cfg0.win 13).blk t).view.set := by
  have hi0 : (i 0).val < 131072 := (i 0).isLt
  have hi1 : (i 1).val < 3 := (i 1).isLt
  let t : Fin cfg0.N := ⟨(i 0).val / 1024, by show (i 0).val / 1024 < 128; omega⟩
  have ht : t.val = (i 0).val / 1024 := rfl
  refine ⟨t, flush0_13 t, ?_⟩
  obtain ⟨e0, e1, e2, e3, e4, e5, e6, e7, e8, e9, e10, e11, e12, e13, e14, e15, e16, e17, e18, e19, e20, e21, e22, e23⟩ := idx_facts t
  rw [mem_blk13]
  intro a
  match a with
  | ⟨0, _⟩ => show win0_13.index t (0 : Fin 2) * 1024 ≤ (i 0).val ∧ (i 0).val < win0_13.index t (0 : Fin 2) * 1024 + 1024; omega
  | ⟨1, _⟩ => show win0_13.index t (1 : Fin 2) * 3 ≤ (i 1).val ∧ (i 1).val < win0_13.index t (1 : Fin 2) * 3 + 3; omega

/-- The output array after the run: the read-out of every node. -/
theorem final (c : Dev nD) : (dats m 0 c).arrAt 13 cfg0.N = Garr m c :=
  (dats m 0 c).arrAt_eq_of_cover 13 (Garr m c) (fun t _ => flushed_eq m c t) cover

end Cert.KernelIdeal.Blocks

end
-- ==== Proof.RefRow.lean ====
/-
  The reference's value at one node, on the extended reals.

  The reference computes every intermediate array over all nodes at once; read at node `n`, each is the node read-out's
  corresponding row function of row `n` of the scalar array, rows `(n, 0), (n, 1), (n, 2)` of the vector array, row `n` of
  the position array, and the weights. The lemmas follow the program's lines in order and end with the per-node dipole
  contribution at `(n, i)` being `nodeMu` of node `n`'s rows.
-/
import proofs.«142957_j86973087744435_2_alg».proof.Proof.ReadP
import proofs.«142957_j86973087744435_2_alg».proof.Proof.SpecArrays
import proofs.«142957_j86973087744435_2_alg».proof.Proof.LibRowwise

noncomputable section

open scoped BigOperators

namespace Cert.ReferenceIdeal.Row

open Cert.ReferenceIdeal Cert.ReferenceIdeal.Gen Cert.ReferenceIdeal.ReadP Idealize.ShloMosaic Idealize.ShloMosaic.ValueIdx Cert.NodeSpec

/-- Two indices of a rank-1, rank-2 or rank-3 array are equal when their coordinates are. -/
macro "idx1" : tactic => `(tactic| (funext a; refine Fin.ext ?_; match a with | ⟨0, _⟩ => rfl))
macro "idx2" : tactic => `(tactic| (funext a; refine Fin.ext ?_; match a with | ⟨0, _⟩ => rfl | ⟨1, _⟩ => rfl))
macro "idx3" : tactic => `(tactic| (funext a; refine Fin.ext ?_; match a with | ⟨0, _⟩ => rfl | ⟨1, _⟩ => rfl | ⟨2, _⟩ => rfl))

theorem mul_congr {a a' b b' : EReal} (h1 : a = a') (h2 : b = b') : a * b = a' * b' := by rw [h1, h2]
theorem add_congr {a a' b b' : EReal} (h1 : a = a') (h2 : b = b') : a + b = a' + b' := by rw [h1, h2]

variable (a0 : (⟨S131072x3, .f32⟩ : BufTy).Contents (Elt Ideal)) (a1 : (⟨S131072x256, .f32⟩ : BufTy).Contents (Elt Ideal)) (a2 : (⟨S131072x3x256, .f32⟩ : BufTy).Contents (Elt Ideal))
  (a4 : (⟨S256x384, .f32⟩ : BufTy).Contents (Elt Ideal)) (a5 : (⟨S512x512, .f32⟩ : BufTy).Contents (Elt Ideal)) (a6 : (⟨S512, .f32⟩ : BufTy).Contents (Elt Ideal)) (a7 : (⟨S512x256, .f32⟩ : BufTy).Contents (Elt Ideal))
  (a8 : (⟨S256, .f32⟩ : BufTy).Contents (Elt Ideal)) (a9 : (⟨S128x129, .f32⟩ : BufTy).Contents (Elt Ideal)) (a10 : (⟨S256x256, .f32⟩ : BufTy).Contents (Elt Ideal)) (a11 : (⟨S256, .f32⟩ : BufTy).Contents (Elt Ideal))
  (a12 : (⟨S256x2, .f32⟩ : BufTy).Contents (Elt Ideal)) (a13 : (⟨S2, .f32⟩ : BufTy).Contents (Elt Ideal)) (n : Fin 131072)

/-- The weights, by coordinates. -/
abbrev PR : Params := Params.ofArrays a4 a5 a6 a7 a8 a9 a10 a11 a12 a13
/-- Node `n`'s three directions of the vector array. -/
abbrev VR : Fin 3 → Fin 256 → EReal := fun i f => a2 (ix3 n i f)

/-! ## The first gate -/

theorem r_v0 (i : Fin 3) (o : Fin 384) : val_main_v0 (F := Ideal) a2 a4 (ix3 n i o) = proj (PR a4 a5 a6 a7 a8 a9 a10 a11 a12 a13) (VR a2 n) i o := by
  rw [val_main_v0_apply]
  unfold proj
  refine Finset.sum_congr rfl fun k _ => ?_
  exact mul_congr (congrArg a2 (by idx3)) (congrArg a4 (by idx2))

theorem r_v1 (i : Fin 3) (k : Fin 256) :
    val_main_v1 (F := Ideal) a2 a4 (ix3 n i k) = proj (PR a4 a5 a6 a7 a8 a9 a10 a11 a12 a13) (VR a2 n) i ⟨k.val, by have := k.isLt; omega⟩ := by
  rw [val_main_v1_apply]
  exact (congrArg (val_main_v0 (F := Ideal) a2 a4) (by idx3)).trans (r_v0 a2 a4 a5 a6 a7 a8 a9 a10 a11 a12 a13 n i _)

theorem r_v2 (i : Fin 3) (k : Fin 128) :
    val_main_v2 (F := Ideal) a2 a4 (ix3 n i k) = proj (PR a4 a5 a6 a7 a8 a9 a10 a11 a12 a13) (VR a2 n) i ⟨256 + k.val, by have := k.isLt; omega⟩ := by
  rw [val_main_v2_apply]
  exact (congrArg (val_main_v0 (F := Ideal) a2 a4) (by idx3)).trans (r_v0 a2 a4 a5 a6 a7 a8 a9 a10 a11 a12 a13 n i _)

/-- The norm over the three directions of the first projection's first 256 columns. -/
theorem r_v3 (k : Fin 256) :
    val_main_v3 (F := Ideal) a2 a4 (ix2 n k)
      = norm3 (proj (PR a4 a5 a6 a7 a8 a9 a10 a11 a12 a13) (VR a2 n) 0 ⟨k.val, by have := k.isLt; omega⟩) (proj (PR a4 a5 a6 a7 a8 a9 a10 a11 a12 a13) (VR a2 n) 1 ⟨k.val, by have := k.isLt; omega⟩)
          (proj (PR a4 a5 a6 a7 a8 a9 a10 a11 a12 a13) (VR a2 n) 2 ⟨k.val, by have := k.isLt; omega⟩) := by
  rw [val_main_v3_apply, val_main_call0_v1_apply, Fin.sum_univ_three]
  simp only [val_main_call0_v0_apply]
  have e : ∀ d : Fin 3, idx_main_call0_v1 (ix2 n k) d = ix3 n d k := fun d => by idx3
  rw [e 0, e 1, e 2, r_v1 a2 a4 a5 a6 a7 a8 a9 a10 a11 a12 a13 n, r_v1 a2 a4 a5 a6 a7 a8 a9 a10 a11 a12 a13 n, r_v1 a2 a4 a5 a6 a7 a8 a9 a10 a11 a12 a13 n]
  unfold norm3
  rw [show val_main_call0_cst (F := Ideal) (Shape.Idx.first h_S_) = (0 : EReal) from Ideal.ofBits_zero_f32, zero_add]
  rfl

/-- The first gate's input row. -/
theorem r_v4 (j : Fin 512) : val_main_v4 (F := Ideal) a1 a2 a4 (ix2 n j) = x1 (PR a4 a5 a6 a7 a8 a9 a10 a11 a12 a13) (row2 a1 n) (VR a2 n) j := by
  unfold val_main_v4
  refine (Cert.LibRowwise.concatenate_cols_apply (a := 256) (b := 256) (c := 512) rfl _ _ _ n j).trans ?_
  unfold NodeSpec.x1
  by_cases hj : j.val < 256
  · rw [dif_pos hj, dif_pos hj]
    rfl
  · rw [dif_neg hj, dif_neg hj]
    exact r_v3 a2 a4 a5 a6 a7 a8 a9 a10 a11 a12 a13 n _

theorem r_v8 (k : Fin 512) :
    val_main_v8 (F := Ideal) a1 a2 a4 a5 a6 (ix2 n k) = ∑ j : Fin 512, x1 (PR a4 a5 a6 a7 a8 a9 a10 a11 a12 a13) (row2 a1 n) (VR a2 n) j * (PR a4 a5 a6 a7 a8 a9 a10 a11 a12 a13).W01 j k + (PR a4 a5 a6 a7 a8 a9 a10 a11 a12 a13).b01 k := by
  rw [val_main_v8_apply, val_main_v5_apply, val_main_v7_apply, val_main_v6_apply]
  refine add_congr (Finset.sum_congr rfl fun j _ => ?_) (congrArg a6 (by idx1))
  exact mul_congr ((congrArg (val_main_v4 (F := Ideal) a1 a2 a4) (by idx2)).trans (r_v4 a1 a2 a4 a5 a6 a7 a8 a9 a10 a11 a12 a13 n j)) (congrArg a5 (by idx2))

/-- The first gate's hidden row. -/
theorem r_v9 (k : Fin 512) : val_main_v9 (F := Ideal) a1 a2 a4 a5 a6 (ix2 n k) = h1 (PR a4 a5 a6 a7 a8 a9 a10 a11 a12 a13) (row2 a1 n) (VR a2 n) k := by
  rw [val_main_v9_apply, val_main_call1_v5_apply, val_main_call1_v4_apply, val_main_call1_v3_apply, val_main_call1_v2_apply,
    val_main_call1_v1_apply, val_main_call1_v0_apply, r_v8 a1 a2 a4 a5 a6 a7 a8 a9 a10 a11 a12 a13 n]
  exact hostSilu_eq _

/-- The first gate's output row. -/
theorem r_v13 (k : Fin 256) : val_main_v13 (F := Ideal) a1 a2 a4 a5 a6 a7 a8 (ix2 n k) = x2 (PR a4 a5 a6 a7 a8 a9 a10 a11 a12 a13) (row2 a1 n) (VR a2 n) k := by
  rw [val_main_v13_apply, val_main_v10_apply, val_main_v12_apply, val_main_v11_apply]
  unfold NodeSpec.x2
  refine add_congr (Finset.sum_congr rfl fun j _ => ?_) (congrArg a8 (by idx1))
  exact mul_congr ((congrArg (val_main_v9 (F := Ideal) a1 a2 a4 a5 a6) (by idx2)).trans (r_v9 a1 a2 a4 a5 a6 a7 a8 a9 a10 a11 a12 a13 n j)) (congrArg a7 (by idx2))

/-- The gated vector features. -/
theorem r_v18 (i : Fin 3) (k : Fin 128) : val_main_v18 (F := Ideal) a1 a2 a4 a5 a6 a7 a8 (ix3 n i k) = vout (PR a4 a5 a6 a7 a8 a9 a10 a11 a12 a13) (row2 a1 n) (VR a2 n) i k := by
  rw [val_main_v18_apply, val_main_v17_apply, val_main_v16_apply, val_main_v15_apply]
  unfold vout
  refine mul_congr ((congrArg (val_main_v13 (F := Ideal) a1 a2 a4 a5 a6 a7 a8) (by idx2)).trans (r_v13 a1 a2 a4 a5 a6 a7 a8 a9 a10 a11 a12 a13 n _)) (r_v2 a2 a4 a5 a6 a7 a8 a9 a10 a11 a12 a13 n i k)

/-- `silu` of the new scalars. -/
theorem r_v19 (k : Fin 128) :
    val_main_v19 (F := Ideal) a1 a2 a4 a5 a6 a7 a8 (ix2 n k) = silu (x2 (PR a4 a5 a6 a7 a8 a9 a10 a11 a12 a13) (row2 a1 n) (VR a2 n) ⟨k.val, by have := k.isLt; omega⟩) := by
  rw [val_main_v19_apply, val_main_call2_v5_apply, val_main_call2_v4_apply, val_main_call2_v3_apply, val_main_call2_v2_apply,
    val_main_call2_v1_apply, val_main_call2_v0_apply, val_main_v14_apply]
  rw [show idx_main_v14 (ix2 n k) = ix2 n ⟨k.val, by have := k.isLt; omega⟩ from by idx2, r_v13 a1 a2 a4 a5 a6 a7 a8 a9 a10 a11 a12 a13 n]
  exact hostSilu_eq _

/-! ## The second gate -/

theorem r_v20 (i : Fin 3) (o : Fin 129) :
    val_main_v20 (F := Ideal) a1 a2 a4 a5 a6 a7 a8 a9 (ix3 n i o) = proj2 (PR a4 a5 a6 a7 a8 a9 a10 a11 a12 a13) (row2 a1 n) (VR a2 n) i o := by
  rw [val_main_v20_apply]
  unfold proj2
  refine Finset.sum_congr rfl fun k _ => ?_
  exact mul_congr ((congrArg (val_main_v18 (F := Ideal) a1 a2 a4 a5 a6 a7 a8) (by idx3)).trans (r_v18 a1 a2 a4 a5 a6 a7 a8 a9 a10 a11 a12 a13 n i k)) (congrArg a9 (by idx2))

theorem r_v21 (i : Fin 3) (k : Fin 128) :
    val_main_v21 (F := Ideal) a1 a2 a4 a5 a6 a7 a8 a9 (ix3 n i k) = proj2 (PR a4 a5 a6 a7 a8 a9 a10 a11 a12 a13) (row2 a1 n) (VR a2 n) i ⟨k.val, by have := k.isLt; omega⟩ := by
  rw [val_main_v21_apply]
  exact (congrArg (val_main_v20 (F := Ideal) a1 a2 a4 a5 a6 a7 a8 a9) (by idx3)).trans (r_v20 a1 a2 a4 a5 a6 a7 a8 a9 a10 a11 a12 a13 n i _)

theorem r_v22 (i : Fin 3) (u : Fin 1) :
    val_main_v22 (F := Ideal) a1 a2 a4 a5 a6 a7 a8 a9 (ix3 n i u) = proj2 (PR a4 a5 a6 a7 a8 a9 a10 a11 a12 a13) (row2 a1 n) (VR a2 n) i ⟨128, by omega⟩ := by
  rw [val_main_v22_apply]
  have hu : u.val = 0 := by omega
  refine (congrArg (val_main_v20 (F := Ideal) a1 a2 a4 a5 a6 a7 a8 a9) (?_ : _ = ix3 n i ⟨128, by omega⟩)).trans (r_v20 a1 a2 a4 a5 a6 a7 a8 a9 a10 a11 a12 a13 n i _)
  funext a; refine Fin.ext ?_
  match a with
  | ⟨0, _⟩ => rfl
  | ⟨1, _⟩ => rfl
  | ⟨2, _⟩ => show 128 + u.val = 128; omega

/-- The norm over the three directions of the second projection's first 128 columns. -/
theorem r_v23 (k : Fin 128) :
    val_main_v23 (F := Ideal) a1 a2 a4 a5 a6 a7 a8 a9 (ix2 n k)
      = norm3 (proj2 (PR a4 a5 a6 a7 a8 a9 a10 a11 a12 a13) (row2 a1 n) (VR a2 n) 0 ⟨k.val, by have := k.isLt; omega⟩) (proj2 (PR a4 a5 a6 a7 a8 a9 a10 a11 a12 a13) (row2 a1 n) (VR a2 n) 1 ⟨k.val, by have := k.isLt; omega⟩)
          (proj2 (PR a4 a5 a6 a7 a8 a9 a10 a11 a12 a13) (row2 a1 n) (VR a2 n) 2 ⟨k.val, by have := k.isLt; omega⟩) := by
  rw [val_main_v23_apply, val_main_call3_v1_apply, Fin.sum_univ_three]
  simp only [val_main_call3_v0_apply]
  have e : ∀ d : Fin 3, idx_main_call3_v1 (ix2 n k) d = ix3 n d k := fun d => by idx3
  rw [e 0, e 1, e 2, r_v21 a1 a2 a4 a5 a6 a7 a8 a9 a10 a11 a12 a13 n, r_v21 a1 a2 a4 a5 a6 a7 a8 a9 a10 a11 a12 a13 n, r_v21 a1 a2 a4 a5 a6 a7 a8 a9 a10 a11 a12 a13 n]
  unfold norm3
  rw [show val_main_call3_cst (F := Ideal) (Shape.Idx.first h_S_) = (0 : EReal) from Ideal.ofBits_zero_f32, zero_add]
  rfl

/-- The second gate's input row. -/
theorem r_v24 (j : Fin 256) : val_main_v24 (F := Ideal) a1 a2 a4 a5 a6 a7 a8 a9 (ix2 n j) = x3 (PR a4 a5 a6 a7 a8 a9 a10 a11 a12 a13) (row2 a1 n) (VR a2 n) j := by
  unfold val_main_v24
  refine (Cert.LibRowwise.concatenate_cols_apply (a := 128) (b := 128) (c := 256) rfl _ _ _ n j).trans ?_
  unfold x3
  by_cases hj : j.val < 128
  · rw [dif_pos hj, dif_pos hj]
    exact r_v19 a1 a2 a4 a5 a6 a7 a8 a9 a10 a11 a12 a13 n ⟨j.val, hj⟩
  · rw [dif_neg hj, dif_neg hj]
    exact r_v23 a1 a2 a4 a5 a6 a7 a8 a9 a10 a11 a12 a13 n _

/-- The second gate's hidden row. -/
theorem r_v29 (k : Fin 256) : val_main_v29 (F := Ideal) a1 a2 a4 a5 a6 a7 a8 a9 a10 a11 (ix2 n k) = h2 (PR a4 a5 a6 a7 a8 a9 a10 a11 a12 a13) (row2 a1 n) (VR a2 n) k := by
  rw [val_main_v29_apply, val_main_call4_v5_apply, val_main_call4_v4_apply, val_main_call4_v3_apply, val_main_call4_v2_apply,
    val_main_call4_v1_apply, val_main_call4_v0_apply]
  have e : val_main_v28 (F := Ideal) a1 a2 a4 a5 a6 a7 a8 a9 a10 a11 (ix2 n k)
      = ∑ j : Fin 256, x3 (PR a4 a5 a6 a7 a8 a9 a10 a11 a12 a13) (row2 a1 n) (VR a2 n) j * (PR a4 a5 a6 a7 a8 a9 a10 a11 a12 a13).W11 j k + (PR a4 a5 a6 a7 a8 a9 a10 a11 a12 a13).b11 k := by
    rw [val_main_v28_apply, val_main_v25_apply, val_main_v27_apply, val_main_v26_apply]
    refine add_congr (Finset.sum_congr rfl fun j _ => ?_) (congrArg a11 (by idx1))
    exact mul_congr ((congrArg (val_main_v24 (F := Ideal) a1 a2 a4 a5 a6 a7 a8 a9) (by idx2)).trans (r_v24 a1 a2 a4 a5 a6 a7 a8 a9 a10 a11 a12 a13 n j)) (congrArg a10 (by idx2))
  rw [e]
  exact hostSilu_eq _

/-- The second gate's output row: a charge and a gate. -/
theorem r_v33 (k : Fin 2) : val_main_v33 (F := Ideal) a1 a2 a4 a5 a6 a7 a8 a9 a10 a11 a12 a13 (ix2 n k) = x4 (PR a4 a5 a6 a7 a8 a9 a10 a11 a12 a13) (row2 a1 n) (VR a2 n) k := by
  rw [val_main_v33_apply, val_main_v30_apply, val_main_v32_apply, val_main_v31_apply]
  unfold x4
  refine add_congr (Finset.sum_congr rfl fun j _ => ?_) (congrArg a13 (by idx1))
  exact mul_congr ((congrArg (val_main_v29 (F := Ideal) a1 a2 a4 a5 a6 a7 a8 a9 a10 a11) (by idx2)).trans (r_v29 a1 a2 a4 a5 a6 a7 a8 a9 a10 a11 a12 a13 n j)) (congrArg a12 (by idx2))

/-! ## The read-out -/

theorem r_v39 (i : Fin 3) :
    val_main_v39 (F := Ideal) a1 a2 a4 a5 a6 a7 a8 a9 a10 a11 a12 a13 (ix2 n i) = x4 (PR a4 a5 a6 a7 a8 a9 a10 a11 a12 a13) (row2 a1 n) (VR a2 n) 1 * proj2 (PR a4 a5 a6 a7 a8 a9 a10 a11 a12 a13) (row2 a1 n) (VR a2 n) i ⟨128, by omega⟩ := by
  rw [val_main_v39_apply, val_main_v38_apply, val_main_v37_apply, val_main_v36_apply, val_main_v35_apply]
  have hi := i.isLt
  have hn := n.isLt
  have e39 : idx_main_v39 (ix2 n i) = ix3 n i (0 : Fin 1) := by
    funext a; refine Fin.ext ?_
    match a with
    | ⟨0, _⟩ => show (n.val * 3 + i.val) / 3 = n.val; omega
    | ⟨1, _⟩ => show (n.val * 3 + i.val) / 1 % 3 = i.val; omega
    | ⟨2, _⟩ => rfl
  rw [e39, r_v22 a1 a2 a4 a5 a6 a7 a8 a9 a10 a11 a12 a13 n i 0]
  refine mul_congr ((congrArg (val_main_v33 (F := Ideal) a1 a2 a4 a5 a6 a7 a8 a9 a10 a11 a12 a13) (?_ : _ = ix2 n (1 : Fin 2))).trans (r_v33 a1 a2 a4 a5 a6 a7 a8 a9 a10 a11 a12 a13 n 1)) rfl
  idx2

theorem r_v45 (i : Fin 3) :
    val_main_v45 (F := Ideal) a0 a1 a2 a4 a5 a6 a7 a8 a9 a10 a11 a12 a13 (ix2 n i)
      = (x4 (PR a4 a5 a6 a7 a8 a9 a10 a11 a12 a13) (row2 a1 n) (VR a2 n) 0 * one + zero) * a0 (ix2 n i) := by
  rw [val_main_v45_apply, val_main_v44_apply, val_main_v43_apply, val_main_v41_apply, val_main_v34_apply, val_main_v40_apply, val_main_v42_apply]
  refine mul_congr (add_congr (mul_congr ((congrArg (val_main_v33 (F := Ideal) a1 a2 a4 a5 a6 a7 a8 a9 a10 a11 a12 a13) (?_ : _ = ix2 n (0 : Fin 2))).trans (r_v33 a1 a2 a4 a5 a6 a7 a8 a9 a10 a11 a12 a13 n 0)) rfl) rfl) rfl
  idx2

/-- The per-node dipole contribution is the read-out of the node's rows. -/
theorem r_v46 : val_main_v46 (F := Ideal) a0 a1 a2 a4 a5 a6 a7 a8 a9 a10 a11 a12 a13 = nodeMuArr a0 a1 a2 a4 a5 a6 a7 a8 a9 a10 a11 a12 a13 := by
  funext j
  obtain ⟨n, i, rfl⟩ : ∃ (n : Fin 131072) (i : Fin 3), j = ix2 n i := ⟨j 0, j 1, eq_ix2 j⟩
  rw [val_main_v46_apply, r_v39 a1 a2 a4 a5 a6 a7 a8 a9 a10 a11 a12 a13 n i, r_v45 a0 a1 a2 a4 a5 a6 a7 a8 a9 a10 a11 a12 a13 n i]
  rfl

end Cert.ReferenceIdeal.Row

end
-- ==== Proof.KernelRun.lean ====
/-
  The idealized kernel's run, read: after the region the host sums the per-node contributions by graph, takes the norm of
  each graph's three sums, subtracts zero and divides by one — the same lines the reference ends with. The region leaves
  the read-out of every node in its output array, which is what the reference's per-node array holds, so the kernel's
  result is the reference's last stage of the kernel's own arguments.
-/
import proofs.«142957_j86973087744435_2_alg».proof.Proof.Blocks
import proofs.«142957_j86973087744435_2_alg».proof.Proof.RefRow

set_option maxRecDepth 16384

noncomputable section

namespace Cert.KernelIdeal.RunRead

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window)
open Cert.KernelIdeal Cert.KernelIdeal.Gen Idealize.ShloMosaic.ValueIdx Cert.NodeSpec

variable (m : (ℓ : Loc nD τ sig) → Buf (Elt Ideal) ℓ) (ρ : Dev nD → PrngReg)

/-- The result the reference's last stage computes from the kernel's arguments. -/
abbrev result (c : Dev nD) : Buf (Elt Ideal) ((c.tc : Thread nD τ).loc main_v15) :=
  Cert.ReferenceIdeal.ReadP.val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-- The lines after the region, applied to what the region left, give that result. -/
theorem tail_eq (c : Dev nD) :
    Pipeline.afterTail₀ cfgs (dats m) 0 (V0 m) [hostOps1, hostOps1_1, hostOps1_2] c main_v15 = result m c := by
  unfold Pipeline.afterTail₀
  simp only [hostOps1, hostOps1_1, hostOps1_2, List.flatten_cons, List.flatten_nil, List.append_nil, List.cons_append, List.nil_append]
  after_results
  have e13 : Pipeline.withArrays (cfgs 0).spec c (V0 m c) (fun w => (dats m 0 c).arrAt w (cfgs 0).N) (Proc.devRef .tc main_v7)
      = Blocks.Garr m c :=
    (Pipeline.withArrays_arr spec0 launch0.win.arr_inj c (V0 m c) (fun w => (dats m 0 c).arrAt w cfg0.N) 13).trans (Blocks.final m c)
  have e3 : Pipeline.withArrays (cfgs 0).spec c (V0 m c) (fun w => (dats m 0 c).arrAt w (cfgs 0).N) (Proc.devRef .tc main_arg3)
      = (m ((c : Thread nD τ).loc main_arg3)) :=
    (Pipeline.withArrays_of_ne _ c (V0 m c) _ main_arg3 (by exact (by decide : ∀ w, Pipeline.arrRef spec0 w ≠ main_arg3))).trans (V_main_arg3 m c)
  rw [e13, e3]
  unfold result Cert.ReferenceIdeal.ReadP.val_main_v54 Cert.ReferenceIdeal.ReadP.val_main_v52 Cert.ReferenceIdeal.ReadP.val_main_v50
    Cert.ReferenceIdeal.ReadP.val_main_call5_v2 Cert.ReferenceIdeal.ReadP.val_main_call5_v1 Cert.ReferenceIdeal.ReadP.val_main_call5_v0
    Cert.ReferenceIdeal.ReadP.val_main_v49
  rw [Cert.ReferenceIdeal.Row.r_v46]
  rfl

/-- Every weakly fair execution of the idealized kernel ends with its result at the reference's last stage of its own
    arguments, the arguments unchanged. -/
theorem run : θ_run defs (onTc (τ := τ) (main (F := Ideal))) ⟨m, fun _ => 0, ρ⟩ (fun r => ∀ c : Dev nD,
      r.2.mem ((c.tc : Thread nD τ).loc main_v15) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).2 main_v15 (Pipeline.mem_restRefs_of main_v15 (by decide) (by decide))).trans (tail_eq m c),
      ((h c).1 2).trans (((dats m 0 c).arrAt_in 2 rfl _).trans ((A_eq m c 2).trans (V_main_arg0 m c))),
      ((h c).1 0).trans (((dats m 0 c).arrAt_in 0 rfl _).trans ((A_eq m c 0).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 4).trans (((dats m 0 c).arrAt_in 4 rfl _).trans ((A_eq m c 4).trans (V_main_arg5 m c))),
      ((h c).1 5).trans (((dats m 0 c).arrAt_in 5 rfl _).trans ((A_eq m c 5).trans (V_main_arg6 m c))),
      (((h c).2 main_arg7 (Pipeline.mem_restRefs_of main_arg7 (by decide) (by decide))).trans (W_main_arg7 m (dats m) c)),
      ((h c).1 7).trans (((dats m 0 c).arrAt_in 7 rfl _).trans ((A_eq m c 7).trans (V_main_arg8 m c))),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      ((h c).1 10).trans (((dats m 0 c).arrAt_in 10 rfl _).trans ((A_eq m c 10).trans (V_main_arg11 m c))),
      (((h c).2 main_arg12 (Pipeline.mem_restRefs_of main_arg12 (by decide) (by decide))).trans (W_main_arg12 m (dats m) c)),
      ((h c).1 12).trans (((dats m 0 c).arrAt_in 12 rfl _).trans ((A_eq m c 12).trans (V_main_arg13 m c)))⟩) (run_main m ρ)

end Cert.KernelIdeal.RunRead

end
-- ==== Proof.lean ====
/-
  A dipole-moment read-out of a graph network: per node, two gated equivariant blocks (each: project the node's three
  vector-feature rows by a matrix, take the norm over the three directions, feed the scalars and the norms through a
  two-layer perceptron with `silu`, gate the projected vectors) reduce 256 scalar and 3 × 256 vector features to a charge
  and a 3-vector; the node's contribution is the 3-vector plus the charge times the position; contributions are summed by
  graph and the result is the norm of each graph's sum.

  The kernel computes the per-node contributions in a pipelined region over blocks of 1024 nodes, with half-precision
  operands in its matrix products, and leaves the sum by graph and the norm to the host; the reference does everything on
  the host over all nodes at once. On the extended reals a change of float format is the identity, a matrix product into
  a zero accumulator and a host contraction are the same sum, and the logistic function is one function however it is
  spelt, so both programs compute, at every node, the same function `nodeMu` of that node's rows (Proof/Spec.lean):
  the kernel block by block (Proof/KernelRow.lean, Proof/Blocks.lean), the reference line by line (Proof/RefRow.lean).
  The only rearrangement between them is the sum of three squares under each norm (accumulated onto zero one at a time
  against a reduction with initial value zero), which is associativity of addition: no finiteness is used, and the
  precondition is never opened. The lines after the per-node array are the same in both programs and are carried whole.
  Nothing was rewritten when the kernel was idealized, so that claim is trivial; the three frames are the generated ones.
-/
import proofs.«142957_j86973087744435_2_alg».proof.Defs
import proofs.«142957_j86973087744435_2_alg».proof.Proof.Gen.Kernel
import proofs.«142957_j86973087744435_2_alg».proof.Proof.Gen.Kernel.Skeleton
import proofs.«142957_j86973087744435_2_alg».proof.Proof.Gen.Kernel.Launch
import proofs.«142957_j86973087744435_2_alg».proof.Proof.Gen.Kernel.Points
import proofs.«142957_j86973087744435_2_alg».proof.Proof.Gen.Kernel.Frame
import proofs.«142957_j86973087744435_2_alg».proof.Proof.Gen.KernelIdeal
import proofs.«142957_j86973087744435_2_alg».proof.Proof.Gen.KernelIdeal.Skeleton
import proofs.«142957_j86973087744435_2_alg».proof.Proof.Gen.KernelIdeal.Launch
import proofs.«142957_j86973087744435_2_alg».proof.Proof.Gen.KernelIdeal.Points
import proofs.«142957_j86973087744435_2_alg».proof.Proof.Gen.KernelIdeal.Frame
import proofs.«142957_j86973087744435_2_alg».proof.Proof.Gen.ReferenceIdeal
import proofs.«142957_j86973087744435_2_alg».proof.Proof.Gen.Pre_finite_inputs
import proofs.«142957_j86973087744435_2_alg».proof.Proof.RunP
import proofs.«142957_j86973087744435_2_alg».proof.Proof.ReadP
import proofs.«142957_j86973087744435_2_alg».proof.Proof.KernelRun
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Both programs end with the reference's last stage of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.RunRead.result m c, Cert.KernelIdeal.RunRead.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v54_eq]
  obtain ⟨h0, h1, h2, h3, h4, h5, h6, h7, h8, h9, h10, h11, h12, h13⟩ := hagree c
  rw [h0, h1, h2, h3, h4, h5, h6, h7, h8, h9, h10, h11, h12, h13]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
